-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x768 : Shape := ⟨3, ![32, 1024, 768]⟩
abbrev S32x1024 : Shape := ⟨2, ![32, 1024]⟩
abbrev S_ : Shape := ⟨0, ![]⟩

class Facts : Prop where
  bcast_S_S32x1024x768 : S_.BroadcastsInDim S32x1024x768 (![] : Fin 0 → Fin S32x1024x768.rank)
  reducesTo_S32x1024x768_S_d0_1_2 : S32x1024x768.ReducesTo [0, 1, 2] S_
  h_S_ : 0 < S_.numel

variable [Facts]

def fn {F : FTy → Type} [FloatOps F] (main_arg0 : FVec F S32x1024x768 .f32) (main_arg1 : IVec S32x1024 32) (main_arg2 : IVec S32x1024 1) : IVec S_ 1 :=
  let main_v0 : FVec F S32x1024x768 .f32 := Host.absf main_arg0
  let main_cst : FVec F S_ .f32 := constant S_ .f32 0x7F800000#32
  let main_v1 : FVec F S32x1024x768 .f32 := broadcastInDim S32x1024x768 ![] bcast_S_S32x1024x768 main_cst
  let main_v2 : IVec S32x1024x768 1 := cmpf .olt main_v0 main_v1
  let main_c : IVec S_ 1 := constantI S_ 1 1#1
  let main_v3 : IVec S_ 1 := (fun x v => Host.reduce IntOp.andi x v reducesTo_S32x1024x768_S_d0_1_2 h_S_) main_v2 main_c
  main_v3
-- ==== Kernel.lean ====
abbrev S32x1024x768 : Shape := ⟨3, ![32, 1024, 768]⟩
abbrev S32x1024 : Shape := ⟨2, ![32, 1024]⟩
abbrev S1x256x768 : Shape := ⟨3, ![1, 256, 768]⟩
abbrev S256x768 : Shape := ⟨2, ![256, 768]⟩
abbrev S256 : Shape := ⟨1, ![256]⟩
abbrev S256x1 : Shape := ⟨2, ![256, 1]⟩
abbrev S32x1024x1 : Shape := ⟨3, ![32, 1024, 1]⟩
abbrev S32x1x1024 : Shape := ⟨3, ![32, 1, 1024]⟩
abbrev S32x1x128 : Shape := ⟨3, ![32, 1, 128]⟩
abbrev S1x1024x768 : Shape := ⟨3, ![1, 1024, 768]⟩
abbrev S1x1024x1 : Shape := ⟨3, ![1, 1024, 1]⟩
abbrev S1x1x1024 : Shape := ⟨3, ![1, 1, 1024]⟩
abbrev S1x1x128 : Shape := ⟨3, ![1, 1, 128]⟩
abbrev S1024x768 : Shape := ⟨2, ![1024, 768]⟩
abbrev S768x1024 : Shape := ⟨2, ![768, 1024]⟩
abbrev S256x1024 : Shape := ⟨2, ![256, 1024]⟩
abbrev S1x256x1 : Shape := ⟨3, ![1, 256, 1]⟩
abbrev S1x1024 : Shape := ⟨2, ![1, 1024]⟩
abbrev S1 : Shape := ⟨1, ![1]⟩
abbrev S1x1 : Shape := ⟨2, ![1, 1]⟩
abbrev S1x128 : Shape := ⟨2, ![1, 128]⟩
abbrev S32x1x1 : Shape := ⟨3, ![32, 1, 1]⟩
abbrev S32 : Shape := ⟨1, ![32]⟩
abbrev S_ : Shape := ⟨0, ![]⟩

abbrev nBuf : Space → Nat
  | .hbm => 23
  | .vmem => 16
  | .smem => 0
  | _ => 0

abbrev bufTy : (tb : Table) → Fin (tcTables nBuf tb) → BufTy
  | .hbm, ⟨0, _⟩ => ⟨S32x1024x768, .f32⟩
  | .hbm, ⟨1, _⟩ => ⟨S32x1024, .i32⟩
  | .hbm, ⟨2, _⟩ => ⟨S32x1024, .i1⟩
  | .hbm, ⟨3, _⟩ => ⟨S32x1024x768, .bf16⟩
  | .hbm, ⟨4, _⟩ => ⟨S32x1024, .i32⟩
  | .hbm, ⟨5, _⟩ => ⟨S32x1024x1, .i32⟩
  | .hbm, ⟨6, _⟩ => ⟨S32x1x1024, .i32⟩
  | .hbm, ⟨7, _⟩ => ⟨S32x1024x1, .i32⟩
  | .hbm, ⟨8, _⟩ => ⟨S32x1x1024, .i32⟩
  | .hbm, ⟨9, _⟩ => ⟨S32x1x128, .f32⟩
  | .hbm, ⟨10, _⟩ => ⟨S32x1x1, .f32⟩
  | .hbm, ⟨11, _⟩ => ⟨S32, .f32⟩
  | .hbm, ⟨12, _⟩ => ⟨S32x1x1, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .bf16⟩
  | .local _ .vmem, ⟨3, _⟩ => ⟨S1x256x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1x1024x1, .i32⟩
  | .local _ .vmem, ⟨7, _⟩ => ⟨S1x1024x1, .i32⟩
  | .local _ .vmem, ⟨8, _⟩ => ⟨S1x1x1024, .i32⟩
  | .local _ .vmem, ⟨9, _⟩ => ⟨S1x1x1024, .i32⟩
  | .local _ .vmem, ⟨10, _⟩ => ⟨S1x1024x1, .i32⟩
  | .local _ .vmem, ⟨11, _⟩ => ⟨S1x1024x1, .i32⟩
  | .local _ .vmem, ⟨12, _⟩ => ⟨S1x1x1024, .i32⟩
  | .local _ .vmem, ⟨13, _⟩ => ⟨S1x1x1024, .i32⟩
  | .local _ .vmem, ⟨14, _⟩ => ⟨S1x1x128, .f32⟩
  | .local _ .vmem, ⟨15, _⟩ => ⟨S1x1x128, .f32⟩
  | _, _ => ⟨S32x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![32, 4], ![false, false]⟩

def k1_mult1 (i : grid1.Coords) : BitVec 32 :=
  let arg1 : BitVec 32 := BitVec.ofNat 32 (i 1).val
  let c256_i32 : BitVec 32 := 256#32
  let v3 : BitVec 32 := Scalar.muli arg1 c256_i32
  v3
def k1_off1 (i : grid1.Coords) : Fin 3 → Nat :=
  let c0_3 : Index := 0#32
  let arg1 : BitVec 32 := BitVec.ofNat 32 (i 1).val
  let c256_i32 : BitVec 32 := 256#32
  let v3 : BitVec 32 := Scalar.muli arg1 c256_i32
  let v4 : BitVec 32 := v3
  let v7 : Index := Scalar.indexCast v4
  let c0_4 : Index := 0#32
  ![0, v7.toNat, 0]
def k1_off2 (i : grid1.Coords) : Fin 3 → Nat :=
  let c0_6 : Index := 0#32
  let arg1 : BitVec 32 := BitVec.ofNat 32 (i 1).val
  let c256_i32 : BitVec 32 := 256#32
  let v3 : BitVec 32 := Scalar.muli arg1 c256_i32
  let v4 : BitVec 32 := v3
  let v14 : Index := Scalar.indexCast v4
  let c0_7 : Index := 0#32
  ![0, v14.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x1024 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  reduces_S256x768_S256 : S256x768.Reduces [1] S256
  shapeCasts_S256_S256x1 : S256.ShapeCasts S256x1
  broadcasts_S256x1_S256x768 : S256x1.Broadcasts S256x768
  bitsLt_bf16_f32 : FTy.bits .bf16 < FTy.bits .f32
  shapeCasts_S256x768_S1x256x768 : S256x768.ShapeCasts S1x256x768
  packedbf16_S1x256x768_S1x256x768_0_0_0 : (Rect.unit (s := S1x256x768) ![0, 0, 0] S1x256x768.size inb_S1x256x768_S1x256x768_0_0_0).PackedRows (EltTy.packing .bf16)
  natLt_1_32 : 1 < 32
  bcast_S32x1024_S32x1024x1_0_1 : S32x1024.BroadcastsInDim S32x1024x1 (![0, 1] : Fin 2 → Fin S32x1024x1.rank)
  bcast_S32x1024_S32x1x1024_0_2 : S32x1024.BroadcastsInDim S32x1x1024 (![0, 2] : Fin 2 → Fin S32x1x1024.rank)
  inb_S1x1x128_S1x1x128_0_0_0 : ∀ a, (![0, 0, 0] : Fin 3 → Nat) a + S1x1x128.size a ≤ S1x1x128.size a
  h_S1x1x128 : 0 < S1x1x128.numel
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  transposes_S1024x768_p1_0_S768x1024 : S1024x768.Transposes [1, 0] S768x1024
  h_S1x256x1 : 0 < S1x256x1.numel
  shapeCasts_S1x256x1_S256x1 : S1x256x1.ShapeCasts S256x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S256x1024 : S1x1024.Broadcasts S256x1024
  broadcasts_S256x1_S256x1024 : S256x1.Broadcasts S256x1024
  iota_S256x1024_d0_w32 : S256x1024.Iotas .tc 32 [0]
  iota_S256x1024_d1_w32 : S256x1024.Iotas .tc 32 [1]
  reduces_S256x1024_S256 : S256x1024.Reduces [1] S256
  reduces_S256x1_S1 : S256x1.Reduces [0] S1
  shapeCasts_S1_S1x1 : S1.ShapeCasts S1x1
  iota_S1x128_d1_w32 : S1x128.Iotas .tc 32 [1]
  shapeCasts_S1x1_S1x1 : S1x1.ShapeCasts S1x1
  broadcasts_S1x1_S1x128 : S1x1.Broadcasts S1x128
  shapeCasts_S1x1x128_S1x128 : S1x1x128.ShapeCasts S1x128
  shapeCasts_S1x128_S1x1x128 : S1x128.ShapeCasts S1x1x128
  slices_S32x1x128_S32x1x1_0_0_0 : S32x1x128.Slices ![0, 0, 0] S32x1x1
  shapeCasts_S32x1x1_S32 : S32x1x1.ShapeCasts S32
  slices_S32x1x128_S32x1x1_0_0_1 : S32x1x128.Slices ![0, 0, 1] S32x1x1
  bcast_S_S32 : S_.BroadcastsInDim S32 (![] : Fin 0 → Fin S32.rank)
  reducesTo_S32_S_d0 : S32.ReducesTo [0] S_
  h_S_ : 0 < S_.numel
  dot_S256x768_S768x1024_S256x1024_1_0_0_1_n_n_wf : DotDims.WF S256x768 S768x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S32x1024x768.size a
  hwx0_0 : ∀ i : grid0.Coords, EltTy.bits .f32 = 32 ∨ (Rect.block (s := S32x1024x768) S1x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x768.size a ≤ S32x1024x768.size a
  hwx0_1 : ∀ i : grid0.Coords, EltTy.bits .bf16 = 32 ∨ (Rect.block (s := S32x1024x768) S1x256x768.size (cc0_transform_1 i) (hinb0_1 i)).WholeWords (EltTy.packing .bf16)
  hrank1 : 0 < grid1.rank
  k1_mult1_dvd : ∀ i : grid1.Coords, 256 ∣ (k1_mult1 i).toNat
  k1_off1_inb : ∀ i : grid1.Coords, ∀ a, (k1_off1 i) a + S1x256x768.size a ≤ S1x1024x768.size a
  k1_off2_inb : ∀ i : grid1.Coords, ∀ a, (k1_off2 i) a + S1x256x1.size a ≤ S1x1024x1.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x768.size a ≤ S32x1024x768.size a
  hwx1_0 : ∀ i : grid1.Coords, EltTy.bits .bf16 = 32 ∨ (Rect.block (s := S32x1024x768) S1x1024x768.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1.size a ≤ S32x1024x1.size a
  hwx1_1 : ∀ i : grid1.Coords, EltTy.bits .i32 = 32 ∨ (Rect.block (s := S32x1024x1) S1x1024x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1024.size a ≤ S32x1x1024.size a
  hwx1_2 : ∀ i : grid1.Coords, EltTy.bits .i32 = 32 ∨ (Rect.block (s := S32x1x1024) S1x1x1024.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1.size a ≤ S32x1024x1.size a
  hwx1_3 : ∀ i : grid1.Coords, EltTy.bits .i32 = 32 ∨ (Rect.block (s := S32x1024x1) S1x1024x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1024.size a ≤ S32x1x1024.size a
  hwx1_4 : ∀ i : grid1.Coords, EltTy.bits .i32 = 32 ∨ (Rect.block (s := S32x1x1024) S1x1x1024.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x128.size a ≤ S32x1x128.size a
  hwx1_5 : ∀ i : grid1.Coords, EltTy.bits .f32 = 32 ∨ (Rect.block (s := S32x1x128) S1x1x128.size (cc1_transform_5 i) (hinb1_5 i)).WholeWords (EltTy.packing .f32)

variable [Facts₀]

def dot_S256x768_S768x1024_S256x1024_1_0_0_1_n_n : DotDims S256x768 S768x1024 S256x1024 where
  lhsContracting := [1]
  rhsContracting := [0]
  lhsNonContracting := [0]
  rhsNonContracting := [1]
  lhsBatch := []
  rhsBatch := []
  wf := dot_S256x768_S768x1024_S256x1024_1_0_0_1_n_n_wf

abbrev win0_0 : Pipeline.Window sig grid0 :=
  Pipeline.Window.ofSpec (Memref.whole main_arg0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1x1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x1x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x1024x768 : Shape := ⟨3, ![32, 1024, 768]⟩
abbrev S32x1024 : Shape := ⟨2, ![32, 1024]⟩
abbrev S_ : Shape := ⟨0, ![]⟩
abbrev S32x1024x1 : Shape := ⟨3, ![32, 1024, 1]⟩
abbrev S32x1024x1024 : Shape := ⟨3, ![32, 1024, 1024]⟩
abbrev S32x1x1024 : Shape := ⟨3, ![32, 1, 1024]⟩
abbrev S1024x1024 : Shape := ⟨2, ![1024, 1024]⟩
abbrev S1x1024x1024 : Shape := ⟨3, ![1, 1024, 1024]⟩
abbrev S32 : Shape := ⟨1, ![32]⟩

abbrev nBuf : Space → Nat
  | .hbm => 72
  | .vmem => 0
  | .smem => 0
  | _ => 0

abbrev bufTy : (tb : Table) → Fin (tcTables nBuf tb) → BufTy
  | .hbm, ⟨0, _⟩ => ⟨S32x1024x768, .f32⟩
  | .hbm, ⟨1, _⟩ => ⟨S32x1024, .i32⟩
  | .hbm, ⟨2, _⟩ => ⟨S32x1024, .i1⟩
  | .hbm, ⟨3, _⟩ => ⟨S32x1024x768, .f32⟩
  | .hbm, ⟨4, _⟩ => ⟨S_, .f32⟩
  | .hbm, ⟨5, _⟩ => ⟨S32x1024, .f32⟩
  | .hbm, ⟨6, _⟩ => ⟨S32x1024x1, .f32⟩
  | .hbm, ⟨7, _⟩ => ⟨S32x1024x1, .f32⟩
  | .hbm, ⟨8, _⟩ => ⟨S_, .f32⟩
  | .hbm, ⟨9, _⟩ => ⟨S32x1024x1, .f32⟩
  | .hbm, ⟨10, _⟩ => ⟨S32x1024x1, .f32⟩
  | .hbm, ⟨11, _⟩ => ⟨S32x1024x768, .f32⟩
  | .hbm, ⟨12, _⟩ => ⟨S32x1024x768, .f32⟩
  | .hbm, ⟨13, _⟩ => ⟨S32x1024x1024, .f32⟩
  | .hbm, ⟨14, _⟩ => ⟨S_, .f32⟩
  | .hbm, ⟨15, _⟩ => ⟨S32x1024x1024, .f32⟩
  | .hbm, ⟨16, _⟩ => ⟨S32x1024x1024, .f32⟩
  | .hbm, ⟨17, _⟩ => ⟨S32x1024x1, .i1⟩
  | .hbm, ⟨18, _⟩ => ⟨S32x1x1024, .i1⟩
  | .hbm, ⟨19, _⟩ => ⟨S32x1024x1024, .i1⟩
  | .hbm, ⟨20, _⟩ => ⟨S32x1024x1024, .i1⟩
  | .hbm, ⟨21, _⟩ => ⟨S32x1024x1024, .i1⟩
  | .hbm, ⟨22, _⟩ => ⟨S_, .i1⟩
  | .hbm, ⟨23, _⟩ => ⟨S1024x1024, .i1⟩
  | .hbm, ⟨24, _⟩ => ⟨S1024x1024, .i32⟩
  | .hbm, ⟨25, _⟩ => ⟨S_, .i32⟩
  | .hbm, ⟨26, _⟩ => ⟨S1024x1024, .i32⟩
  | .hbm, ⟨27, _⟩ => ⟨S1024x1024, .i32⟩
  | .hbm, ⟨28, _⟩ => ⟨S1024x1024, .i32⟩
  | .hbm, ⟨29, _⟩ => ⟨S1024x1024, .i1⟩
  | .hbm, ⟨30, _⟩ => ⟨S_, .i1⟩
  | .hbm, ⟨31, _⟩ => ⟨S1024x1024, .i1⟩
  | .hbm, ⟨32, _⟩ => ⟨S1024x1024, .i1⟩
  | .hbm, ⟨33, _⟩ => ⟨S1x1024x1024, .i1⟩
  | .hbm, ⟨34, _⟩ => ⟨S32x1024x1024, .i1⟩
  | .hbm, ⟨35, _⟩ => ⟨S32x1024x1024, .i1⟩
  | .hbm, ⟨36, _⟩ => ⟨S32x1024x1024, .f32⟩
  | .hbm, ⟨37, _⟩ => ⟨S32x1024, .f32⟩
  | .hbm, ⟨38, _⟩ => ⟨S32x1x1024, .f32⟩
  | .hbm, ⟨39, _⟩ => ⟨S32x1024x1, .f32⟩
  | .hbm, ⟨40, _⟩ => ⟨S32x1024x1024, .f32⟩
  | .hbm, ⟨41, _⟩ => ⟨S32x1024x1024, .f32⟩
  | .hbm, ⟨42, _⟩ => ⟨S32x1024x1024, .f32⟩
  | .hbm, ⟨43, _⟩ => ⟨S32x1024x1024, .f32⟩
  | .hbm, ⟨44, _⟩ => ⟨S_, .f32⟩
  | .hbm, ⟨45, _⟩ => ⟨S32x1024x1024, .f32⟩
  | .hbm, ⟨46, _⟩ => ⟨S32x1024x1024, .f32⟩
  | .hbm, ⟨47, _⟩ => ⟨S32x1x1024, .f32⟩
  | .hbm, ⟨48, _⟩ => ⟨S32x1024x1, .f32⟩
  | .hbm, ⟨49, _⟩ => ⟨S32x1024x1024, .f32⟩
  | .hbm, ⟨50, _⟩ => ⟨S32x1024x1024, .f32⟩
  | .hbm, ⟨51, _⟩ => ⟨S32x1024x1024, .f32⟩
  | .hbm, ⟨52, _⟩ => ⟨S_, .f32⟩
  | .hbm, ⟨53, _⟩ => ⟨S32x1024x1024, .f32⟩
  | .hbm, ⟨54, _⟩ => ⟨S32x1024x1024, .f32⟩
  | .hbm, ⟨55, _⟩ => ⟨S32x1024x1024, .f32⟩
  | .hbm, ⟨56, _⟩ => ⟨S32x1024x1024, .f32⟩
  | .hbm, ⟨57, _⟩ => ⟨S32x1024x1024, .f32⟩
  | .hbm, ⟨58, _⟩ => ⟨S32x1024x1024, .f32⟩
  | .hbm, ⟨59, _⟩ => ⟨S_, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S32x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_0 : Ref sig .tc := ⟨.hbm, 30, rfl⟩
abbrev main_call1_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_3 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩

abbrev nD : Nat := 1
abbrev τ : Topo := Topo.v7x

variable {F : FTy → Type} [FloatOps F]

class Facts₀ : Prop where
  reducesTo_S32x1024x768_S32x1024_d2 : S32x1024x768.ReducesTo [2] S32x1024
  h_S_ : 0 < S_.numel
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x768_0_1_2 : S32x1024x1.BroadcastsInDim S32x1024x768 (![0, 1, 2] : Fin 3 → Fin S32x1024x768.rank)
  bcast_S_S32x1024x1024 : S_.BroadcastsInDim S32x1024x1024 (![] : Fin 0 → Fin S32x1024x1024.rank)
  bcast_S32x1024_S32x1x1024_0_2 : S32x1024.BroadcastsInDim S32x1x1024 (![0, 2] : Fin 2 → Fin S32x1x1024.rank)
  bcast_S32x1024x1_S32x1024x1024_0_1_2 : S32x1024x1.BroadcastsInDim S32x1024x1024 (![0, 1, 2] : Fin 3 → Fin S32x1024x1024.rank)
  bcast_S32x1x1024_S32x1024x1024_0_1_2 : S32x1x1024.BroadcastsInDim S32x1024x1024 (![0, 1, 2] : Fin 3 → Fin S32x1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  reducesTo_S32x1024x1024_S32_d1_2 : S32x1024x1024.ReducesTo [1, 2] S32
  bcast_S_S32 : S_.BroadcastsInDim S32 (![] : Fin 0 → Fin S32.rank)
  reducesTo_S32_S_d0 : S32.ReducesTo [0] S_
  dot_S32x1024x768_S32x1024x768_S32x1024x1024_2_2_1_1_0_0_wf : DotDims.WF S32x1024x768 S32x1024x768 S32x1024x1024 [2] [2] [1] [1] [0] [0]

variable [Facts₀]

def dot_S32x1024x768_S32x1024x768_S32x1024x1024_2_2_1_1_0_0 : DotDims S32x1024x768 S32x1024x768 S32x1024x1024 where
  lhsContracting := [2]
  rhsContracting := [2]
  lhsNonContracting := [1]
  rhsNonContracting := [1]
  lhsBatch := [0]
  rhsBatch := [0]
  wf := dot_S32x1024x768_S32x1024x768_S32x1024x1024_2_2_1_1_0_0_wf

class Facts : Prop extends Facts₀ where

variable [Facts]
-- ==== Proof.Region1Body.lean ====
/-
  What one grid point of the pairwise kernel leaves in its accumulator block.

  At a grid point (b, t) the body reads the whole [1,1024,768] block of normalized rows and the 256 rows of tile t of
  it, the labels and mask bits as a column (tile t's 256 rows) and as a row (all 1024 columns), and leaves in the
  [1,1,128] output block the previous contents plus, in lane 0, the tile's sum of masked squared differences and, in
  lane 1, the tile's sum of weights.  At the first tile of a batch entry the previous contents are the zero block the
  body has just stored; at the other tiles they are what the point before left.  Both cases are one function
  (`body1`) of the point's loads and of the accumulator's prior contents.
-/
import proofs.«115061_j53025666237022_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.PairLoss.K1

open Cert.KernelIdeal Cert.KernelIdeal.Gen

variable {F : FTy → Type} [FloatOps F]

theorem hz3 : (![0, 0, 0] : Fin 3 → Nat) = fun _ => 0 := funext fun a => by fin_cases a <;> rfl

/-- The accumulator block after the body at grid coordinates `i`, from the five input blocks and the accumulator's
    contents before the final addition. -/
def body1 (i : grid1.Coords) (x0 : Vec F S1x1024x768 .bf16) (x1 : Vec F S1x1024x1 .i32) (x2 : Vec F S1x1x1024 .i32) (x3 : Vec F S1x1024x1 .i32) (x4 : Vec F S1x1x1024 .i32) (acc : Vec F S1x1x128 .f32) : Vec F S1x1x128 .f32 :=
  k1_pay5 (Scalar.muli (BitVec.ofNat 32 (i 1).val) 256#32)
    (k1_pay2 x0 (View.ld x0 (Rect.unit (s := S1x1024x768) (k1_off1 i) S1x256x768.size (k1_off1_inb i))))
    (k1_pay3 (View.ld x1 (Rect.unit (s := S1x1024x1) (k1_off2 i) S1x256x1.size (k1_off2_inb i))) x2)
    (k1_pay4 (View.ld x3 (Rect.unit (s := S1x1024x1) (k1_off2 i) S1x256x1.size (k1_off2_inb i))))
    x4 acc

/-- A later tile of a batch entry: the body adds its tile's sums to what the point before left. -/
theorem out_B (c : Dev nD) (i : grid1.Coords) (arg2 : Memref sig .tc .vmem S1x1024x768 .bf16) (harg2 : arg2.IsWhole) (arg3 : Memref sig .tc .vmem S1x1024x1 .i32) (harg3 : arg3.IsWhole) (arg4 : Memref sig .tc .vmem S1x1x1024 .i32) (harg4 : arg4.IsWhole) (arg5 : Memref sig .tc .vmem S1x1024x1 .i32) (harg5 : arg5.IsWhole) (arg6 : Memref sig .tc .vmem S1x1x1024 .i32) (harg6 : arg6.IsWhole) (arg7 : Memref sig .tc .vmem S1x1x128 .f32) (harg7 : arg7.IsWhole) (hc0 : ¬cond1_0 i)
    (x0 : Vec F S1x1024x768 .bf16) (x1 : Vec F S1x1024x1 .i32) (x2 : Vec F S1x1x1024 .i32) (x3 : Vec F S1x1024x1 .i32) (x4 : Vec F S1x1x1024 .i32) (xo5 : Vec F S1x1x128 .f32) :
    out1_B_5 c i arg2 harg2 arg3 harg3 arg4 harg4 arg5 harg5 arg6 harg6 arg7 harg7 hc0 x0 x1 x2 x3 x4 xo5 = body1 i x0 x1 x2 x3 x4 xo5 := by
  unfold out1_B_5
  rw [View.read_writes_eq_canon _ _ _ (cover1_B_5 c i arg2 harg2 arg3 harg3 arg4 harg4 arg5 harg5 arg6 harg6 arg7 harg7 hc0 x0 x1 x2 x3 x4 xo5)]
  unfold kernelRun1_B
  dsimp only
  sl_unfold_words
  rw [View.canon_unit_zero hz3]
  simp only [View.readAt_eq_ld, harg2.read_unread, harg3.read_unread, harg4.read_unread, harg5.read_unread,
    harg6.read_unread, harg7.read_unread, View.ld_unit_zero (S := S1x1024x768) hz3, View.ld_unit_zero (S := S1x1x1024) hz3,
    View.ld_unit_zero (S := S1x1x128) hz3]
  rfl

/-- The first tile of a batch entry: the body stores the zero block, reads it back and adds its tile's sums. -/
theorem out_A (c : Dev nD) (i : grid1.Coords) (arg2 : Memref sig .tc .vmem S1x1024x768 .bf16) (harg2 : arg2.IsWhole) (arg3 : Memref sig .tc .vmem S1x1024x1 .i32) (harg3 : arg3.IsWhole) (arg4 : Memref sig .tc .vmem S1x1x1024 .i32) (harg4 : arg4.IsWhole) (arg5 : Memref sig .tc .vmem S1x1024x1 .i32) (harg5 : arg5.IsWhole) (arg6 : Memref sig .tc .vmem S1x1x1024 .i32) (harg6 : arg6.IsWhole) (arg7 : Memref sig .tc .vmem S1x1x128 .f32) (harg7 : arg7.IsWhole) (hc0 : cond1_0 i)
    (x0 : Vec F S1x1024x768 .bf16) (x1 : Vec F S1x1024x1 .i32) (x2 : Vec F S1x1x1024 .i32) (x3 : Vec F S1x1024x1 .i32) (x4 : Vec F S1x1x1024 .i32) :
    out1_A_5 c i arg2 harg2 arg3 harg3 arg4 harg4 arg5 harg5 arg6 harg6 arg7 harg7 hc0 x0 x1 x2 x3 x4 = body1 i x0 x1 x2 x3 x4 (k1_pay1 (F := F)) := by
  unfold out1_A_5
  rw [View.read_writes_eq_canon _ _ _ (cover1_A_5 c i arg2 harg2 arg3 harg3 arg4 harg4 arg5 harg5 arg6 harg6 arg7 harg7 hc0 x0 x1 x2 x3 x4)]
  unfold kernelRun1_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread,
    harg6.read_unread, View.ld_unit_zero (S := S1x1024x768) hz3, View.ld_unit_zero (S := S1x1x1024) hz3]
  rfl

end Cert.PairLoss.K1

end
-- ==== Proof.Spec.lean ====
/-
  The loss both programs compute, as one function of the three arguments, over the extended reals.

  For a batch entry b the rows x(b,i,·) of the embeddings are divided by their Euclidean norm, clamped below by a
  small constant; c(b,i,j) is the inner product of the normalized rows i and j; v(b,i,j) is the relative distance
  2·|g(b,j) - g(b,i)| / (|g(b,j)| + |g(b,i)| + ε) of the integer labels g read as numbers; the pair (i,j) counts
  (weight 1, else 0) when both mask bits are set and i < j.  The numerator of b is the sum over all pairs of
  ((1 - c) - v)² times the weight, the denominator the sum of the weights; the result is the mean over b of
  sqrt (numerator / (denominator + ε')), written with the host's operations (`tail`).
-/
import Idealize.ShloMosaic.PureOps.Ideal
import Idealize.ShloMosaic.PureOps.Ideal.Laws
import Idealize.ShloMosaic.Lib.ValueIdx

noncomputable section

namespace Cert.PairLoss

open Idealize.ShloMosaic Idealize.ShloMosaic.ValueIdx
open scoped BigOperators

abbrev SX : Shape := ⟨3, ![32, 1024, 768]⟩
abbrev SG : Shape := ⟨2, ![32, 1024]⟩
abbrev SB : Shape := ⟨1, ![32]⟩
abbrev S0 : Shape := ⟨0, ![]⟩

/-- The lower bound of a row's norm. -/
def epsNorm : EReal := Ideal.ofBits .f32 0x322BCC77#32
/-- The number one, as the programs write it. -/
def oneW : EReal := Ideal.ofBits .f32 0x3F800000#32
/-- The number two, as the programs write it. -/
def twoW : EReal := Ideal.ofBits .f32 0x40000000#32
/-- The constant added to the relative distance's denominator. -/
def epsVal : EReal := Ideal.ofBits .f32 0x219392EF#32

variable (X : SX.Idx → EReal) (GT : SG.Idx → BitVec 32) (NM : SG.Idx → BitVec 1)

/-- The clamped Euclidean norm of row (b, i). -/
def nrm (b : Fin 32) (i : Fin 1024) : EReal :=
  max (Ideal.sqrt (∑ h : Fin 768, X (ix3 b i h) * X (ix3 b i h))) epsNorm

/-- The normalized embedding. -/
def xn (b : Fin 32) (i : Fin 1024) (h : Fin 768) : EReal := Ideal.div (X (ix3 b i h)) (nrm X b i)

/-- The cosine of rows i and j. -/
def cosv (b : Fin 32) (i j : Fin 1024) : EReal := ∑ h : Fin 768, xn X b i h * xn X b j h

/-- The label of (b, i) as a number. -/
def gf (b : Fin 32) (i : Fin 1024) : EReal := FloatOps.sitofp (F := Ideal) .f32 (GT (ix2 b i))

/-- The relative distance of the labels of i and j. -/
def vd (b : Fin 32) (i j : Fin 1024) : EReal :=
  Ideal.div (twoW * max (gf GT b j - gf GT b i) (-(gf GT b j - gf GT b i)))
    ((max (gf GT b j) (-(gf GT b j)) + max (gf GT b i) (-(gf GT b i))) + epsVal)

/-- The squared difference of cosine distance and relative distance. -/
def sqv (b : Fin 32) (i j : Fin 1024) : EReal :=
  ((oneW - cosv X b i j) - vd GT b i j) * ((oneW - cosv X b i j) - vd GT b i j)

/-- The weight of the pair (i, j): one when both mask bits are set and i < j, else zero. -/
def mk (b : Fin 32) (i j : Fin 1024) : EReal :=
  if NM (ix2 b i) = 1#1 ∧ NM (ix2 b j) = 1#1 ∧ i.val < j.val then 1 else 0

/-- One pair's term of the numerator. -/
def term (b : Fin 32) (i j : Fin 1024) : EReal := sqv X GT b i j * mk NM b i j

/-- The numerator of batch entry b. -/
def num (b : Fin 32) : EReal := ∑ i : Fin 1024, ∑ j : Fin 1024, term X GT NM b i j

/-- The sum of the weights of batch entry b. -/
def den (b : Fin 32) : EReal := ∑ i : Fin 1024, ∑ j : Fin 1024, mk NM b i j

/-- The numerators as a vector over the batch. -/
def numV : SB.Idx → EReal := fun q => num X GT NM (q 0)
/-- The weight sums as a vector over the batch. -/
def denV : SB.Idx → EReal := fun q => den NM (q 0)

/-- The closing host operations both programs share: add a small constant to the weight sums, divide, take the square
    root, sum over the batch from zero and divide by the batch size. -/
def tail (hb : S0.BroadcastsInDim SB (![] : Fin 0 → Fin SB.rank)) (hr : SB.ReducesTo [0] S0) (h0 : 0 < S0.numel)
    (N D : FVec Ideal SB .f32) : FVec Ideal S0 .f32 :=
  Host.divf (F := Ideal)
    (Host.reduceAdd (F := Ideal)
      (Host.sqrt (F := Ideal) (Host.divf (F := Ideal) N
        (addf (F := Ideal) D (broadcastInDim SB ![] hb (constant (F := Ideal) S0 .f32 0x29E12E13#32)))))
      (constant (F := Ideal) S0 .f32 0x00000000#32) hr h0)
    (constant (F := Ideal) S0 .f32 0x42000000#32)

/-- The loss. -/
def result (hb : S0.BroadcastsInDim SB (![] : Fin 0 → Fin SB.rank)) (hr : SB.ReducesTo [0] S0) (h0 : 0 < S0.numel) :
    FVec Ideal S0 .f32 :=
  tail hb hr h0 (numV X GT NM) (denV NM)

end Cert.PairLoss

end
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibCols.lean ====
/-
  A reduction over the FIRST axis of a matrix, and a square root, read at explicit coordinates at the exact
  (extended-real) values.

  Column `t` of an [a, b] array reduced over its first axis collects the entries (s, t), s running over the a rows:
  a sum is their sum. A square root of an array reads, at an index, the square root of the entry.
-/
import Idealize.ShloMosaic.PureOps.Ideal.Laws
import Idealize.ShloMosaic.Lib.ValueIdx

open scoped BigOperators

namespace Idealize.ShloMosaic.ValueIdx

open Idealize.ShloMosaic

/-- Inserting the row `s` into the column index `t` gives the entry `(s, t)`. -/
theorem lift_first_ix2 {a b : ℕ} (h : (⟨2, ![a, b]⟩ : Shape).Reduces [0] ⟨1, ![b]⟩) (t : Fin b) (s : Fin a) :
    h.lift (ix1 t) s = ix2 s t := by
  funext d
  refine Fin.ext ?_
  match d with
  | ⟨0, _⟩ => rfl
  | ⟨1, _⟩ => rfl

variable {φ : FTy}

/-- A column's sum: the sum of the column's entries. -/
theorem colSum_apply {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (t : Fin b) :
    multiReduction .add [0] ⟨1, ![b]⟩ v acc h hφ hacc (ix1 t) = ∑ s : Fin a, v (ix2 s t) := by
  rw [Ideal.multiReduction_add_single]
  show ∑ s : Fin a, _ = _
  exact Finset.sum_congr rfl fun s _ => congrArg v (lift_first_ix2 h t s)

/-- A square root read at an index. -/
theorem sqrt_apply {s : Shape} (a : FVec Ideal s φ) (i : s.Idx) : sqrt a i = Ideal.sqrt (a i) := rfl

end Idealize.ShloMosaic.ValueIdx
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.Region1Pay.lean ====
/-
  The pairwise kernel's arithmetic read at coordinates, over the extended reals.

  For one tile of 256 rows against all 1024 columns: entry (r, j) of the cosine-distance array is one minus the inner
  product of tile row r and row j of the normalized block; entry (r, j) of the relative-distance array is
  2·|g_j - g_r| / (|g_j| + |g_r| + ε) of the labels read as numbers; the weight of (r, j) is the product of the two
  mask words read as numbers and of the comparison "tile offset + r < j" read as a number.  The body's last value
  holds, in lane 0, the accumulator's lane 0 plus the sum over the tile of the squared difference times the weight,
  and in lane 1 the accumulator's lane 1 plus the sum of the weights.
-/
import proofs.«115061_j53025666237022_1_alg».proof.Proof.Gen.KernelIdeal.Skeleton
import proofs.«115061_j53025666237022_1_alg».proof.Proof.Spec
import proofs.«115061_j53025666237022_1_alg».proof.Proof.LibRows
import proofs.«115061_j53025666237022_1_alg».proof.Proof.LibCols
import proofs.«115061_j53025666237022_1_alg».proof.Proof.LibLayout
import proofs.«115061_j53025666237022_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.ValueIdx
open scoped BigOperators

namespace Cert.PairLoss.K1

open Cert.KernelIdeal Cert.KernelIdeal.Gen

/-! ## The body's last value in three parts -/

/-- The weights of a tile: row mask times column mask times the comparison of the row's number with the column's. -/
def maskK (v4 : BitVec 32) (v37 : IVec S256x1 32) (v39 : Vec Ideal S1x1x1024 .i32) : FVec Ideal S256x1024 .f32 :=
  mulf (mulf (broadcastTo S256x1024 (sitofp .f32 v37) broadcasts_S256x1_S256x1024)
      (broadcastTo S256x1024 (sitofp .f32 (shapeCast S1x1024 v39 shapeCasts_S1x1x1024_S1x1024)) broadcasts_S1x1024_S256x1024))
    (sitofp .f32 (extui 32 (cmpi .slt (addi (iota .tc S256x1024 32 [0] iota_S256x1024_d0_w32) (broadcast S256x1024 v4))
      (iota .tc S256x1024 32 [1] iota_S256x1024_d1_w32)) natLt_1_32))

/-- All entries of a tile summed: along the rows, then down the column of row sums. -/
def sumAll (w : FVec Ideal S256x1024 .f32) : FVec Ideal S1x1 .f32 :=
  shapeCast S1x1 (multiReduction .add [0] S1
    (shapeCast S256x1 (multiReduction .add [1] S256 w 0x00000000#32 reduces_S256x1024_S256 (.inl rfl) rfl) shapeCasts_S256_S256x1)
    0x00000000#32 reduces_S256x1_S1 (.inl rfl) rfl) shapeCasts_S1_S1x1

/-- The accumulator plus `a` in lane 0, `b` in lane 1 and zero elsewhere. -/
def lanes (a b : FVec Ideal S1x1 .f32) (v76 : Vec Ideal S1x1x128 .f32) : FVec Ideal S1x1x128 .f32 :=
  shapeCast S1x1x128
    (addf (shapeCast S1x128 v76 shapeCasts_S1x1x128_S1x128)
      (select (cmpi .eq (iota .tc S1x128 32 [1] iota_S1x128_d1_w32) (broadcast S1x128 0#32))
        (broadcastTo S1x128 (shapeCast S1x1 a shapeCasts_S1x1_S1x1) broadcasts_S1x1_S1x128)
        (select (cmpi .eq (iota .tc S1x128 32 [1] iota_S1x128_d1_w32) (broadcast S1x128 1#32))
          (broadcastTo S1x128 (shapeCast S1x1 b shapeCasts_S1x1_S1x1) broadcasts_S1x1_S1x128)
          (broadcast S1x128 (Scalar.ofBits .f32 0x00000000#32)))))
    shapeCasts_S1x128_S1x1x128

/-- The body's last value is these three parts composed. -/
theorem pay5_eq (v4 : BitVec 32) (v13 v34 : FVec Ideal S256x1024 .f32) (v37 : IVec S256x1 32)
    (v39 : Vec Ideal S1x1x1024 .i32) (v76 : Vec Ideal S1x1x128 .f32) :
    k1_pay5 v4 v13 v34 v37 v39 v76
      = lanes (sumAll (mulf (mulf (subf v13 v34) (subf v13 v34)) (maskK v4 v37 v39))) (sumAll (maskK v4 v37 v39)) v76 := rfl

/-! ## Each part at coordinates -/

/-- A tile's total: the double sum over its rows and columns. -/
theorem sumAll_apply (w : FVec Ideal S256x1024 .f32) :
    sumAll w (ix2 (0 : Fin 1) (0 : Fin 1)) = ∑ r : Fin 256, ∑ j : Fin 1024, w (ix2 r j) := by
  unfold sumAll
  refine (shapeCast_a_1a_apply _ shapeCasts_S1_S1x1 (0 : Fin 1) (0 : Fin 1)).trans ?_
  refine (colSum_apply _ _ reduces_S256x1_S1 (.inl rfl) rfl (0 : Fin 1)).trans ?_
  refine Finset.sum_congr rfl fun r _ => ?_
  refine (shapeCast_a_a1_apply _ shapeCasts_S256_S256x1 r (0 : Fin 1)).trans ?_
  exact rowSum_apply w _ reduces_S256x1024_S256 (.inl rfl) rfl r

/-- The lane number compared with a word. -/
theorem laneWord (k : BitVec 32) (l : Fin 128) :
    cmpi .eq (iota .tc S1x128 32 [1] iota_S1x128_d1_w32) (broadcast S1x128 k) (ix2 (0 : Fin 1) l)
      = IntOp.cmpi .eq (BitVec.ofNat 32 l.val) k := by
  show IntOp.cmpi .eq (iota .tc S1x128 32 [1] iota_S1x128_d1_w32 (ix2 (0 : Fin 1) l)) k = _
  rw [iota_single_apply]

/-- Lane 0 holds the accumulator's lane 0 plus `a`. -/
theorem lanes_apply0 (a b : FVec Ideal S1x1 .f32) (v76 : Vec Ideal S1x1x128 .f32) :
    lanes a b v76 (ix3 (0 : Fin 1) (0 : Fin 1) (0 : Fin 128))
      = v76 (ix3 (0 : Fin 1) (0 : Fin 1) (0 : Fin 128)) + a (ix2 (0 : Fin 1) (0 : Fin 1)) := by
  unfold lanes
  refine (shapeCast_ab_1ab_apply _ shapeCasts_S1x128_S1x1x128 (0 : Fin 1) (0 : Fin 1) (0 : Fin 128)).trans ?_
  refine (addf_apply _ _ _).trans ?_
  refine congrArg₂ (· + ·) (shapeCast_1ab_ab_apply v76 shapeCasts_S1x1x128_S1x128 (0 : Fin 1) (0 : Fin 128)) ?_
  refine (select_apply _ _ _ _).trans ?_
  rw [laneWord 0#32 (0 : Fin 128), show IntOp.cmpi .eq (BitVec.ofNat 32 (0 : Fin 128).val) 0#32 = 1#1 from by decide, select_one]
  refine (broadcastTo_a1_ab_apply _ broadcasts_S1x1_S1x128 (0 : Fin 1) (0 : Fin 128)).trans ?_
  rw [shapeCast_self]

/-- Lane 1 holds the accumulator's lane 1 plus `b`. -/
theorem lanes_apply1 (a b : FVec Ideal S1x1 .f32) (v76 : Vec Ideal S1x1x128 .f32) :
    lanes a b v76 (ix3 (0 : Fin 1) (0 : Fin 1) (1 : Fin 128))
      = v76 (ix3 (0 : Fin 1) (0 : Fin 1) (1 : Fin 128)) + b (ix2 (0 : Fin 1) (0 : Fin 1)) := by
  unfold lanes
  refine (shapeCast_ab_1ab_apply _ shapeCasts_S1x128_S1x1x128 (0 : Fin 1) (0 : Fin 1) (1 : Fin 128)).trans ?_
  refine (addf_apply _ _ _).trans ?_
  refine congrArg₂ (· + ·) (shapeCast_1ab_ab_apply v76 shapeCasts_S1x1x128_S1x128 (0 : Fin 1) (1 : Fin 128)) ?_
  refine (select_apply _ _ _ _).trans ?_
  rw [laneWord 0#32 (1 : Fin 128), show IntOp.cmpi .eq (BitVec.ofNat 32 (1 : Fin 128).val) 0#32 = 0#1 from by decide, select_zero]
  refine (select_apply _ _ _ _).trans ?_
  rw [laneWord 1#32 (1 : Fin 128), show IntOp.cmpi .eq (BitVec.ofNat 32 (1 : Fin 128).val) 1#32 = 1#1 from by decide, select_one]
  refine (broadcastTo_a1_ab_apply _ broadcasts_S1x1_S1x128 (0 : Fin 1) (1 : Fin 128)).trans ?_
  rw [shapeCast_self]

/-- The weight of (r, j). -/
theorem maskK_apply (v4 : BitVec 32) (v37 : IVec S256x1 32) (v39 : Vec Ideal S1x1x1024 .i32) (r : Fin 256) (j : Fin 1024) :
    maskK v4 v37 v39 (ix2 r j)
      = (FloatOps.sitofp (F := Ideal) .f32 (v37 (ix2 r (0 : Fin 1))) * FloatOps.sitofp (F := Ideal) .f32 (v39 (ix3 (0 : Fin 1) (0 : Fin 1) j)))
        * FloatOps.sitofp (F := Ideal) .f32
            ((IntOp.cmpi .slt (IntOp.addi (BitVec.ofNat 32 r.val) v4) (BitVec.ofNat 32 j.val)).setWidth 32) := by
  unfold maskK
  refine (mulf_apply _ _ _).trans ?_
  refine congrArg₂ (· * ·) ((mulf_apply _ _ _).trans (congrArg₂ (· * ·) ?_ ?_)) ?_
  · exact broadcastTo_a1_ab_apply _ broadcasts_S256x1_S256x1024 r j
  · exact (broadcastTo_1b_ab_apply _ broadcasts_S1x1024_S256x1024 r j).trans
      (congrArg (FloatOps.sitofp (F := Ideal) .f32) (shapeCast_1ab_ab_apply v39 shapeCasts_S1x1x1024_S1x1024 (0 : Fin 1) j))
  · show FloatOps.sitofp (F := Ideal) .f32
        ((IntOp.cmpi .slt (IntOp.addi (iota .tc S256x1024 32 [0] iota_S256x1024_d0_w32 (ix2 r j)) v4)
          (iota .tc S256x1024 32 [1] iota_S256x1024_d1_w32 (ix2 r j))).setWidth 32) = _
    rw [iota_single_apply, iota_single_apply]

/-- The cosine distance of tile row r and row j. -/
theorem pay2_apply (v5 : Vec Ideal S1x1024x768 .bf16) (v8 : Vec Ideal S1x256x768 .bf16) (r : Fin 256) (j : Fin 1024) :
    k1_pay2 v5 v8 (ix2 r j)
      = Cert.PairLoss.oneW - ∑ h : Fin 768, v8 (ix3 (0 : Fin 1) r h) * v5 (ix3 (0 : Fin 1) j h) := by
  unfold k1_pay2
  refine (subf_apply _ _ _).trans ?_
  refine congrArg₂ (· - ·) rfl ?_
  refine (Cert.LibPlainDot.matmul_plain_apply dot_S256x768_S768x1024_S256x1024_1_0_0_1_n_n rfl rfl rfl rfl rfl rfl none _ _ r j).trans ?_
  refine Finset.sum_congr rfl fun h _ => ?_
  refine congrArg₂ (· * ·) (shapeCast_1ab_ab_apply v8 shapeCasts_S1x256x768_S256x768 r h) ?_
  exact (transpose_ix2_apply _ transposes_S1024x768_p1_0_S768x1024 h j).trans
    (shapeCast_1ab_ab_apply v5 shapeCasts_S1x1024x768_S1024x768 j h)

/-- The relative distance of the labels of tile row r and column j. -/
theorem pay3_apply (v15 : Vec Ideal S1x256x1 .i32) (v18 : Vec Ideal S1x1x1024 .i32) (r : Fin 256) (j : Fin 1024) :
    k1_pay3 v15 v18 (ix2 r j)
      = Ideal.div (Cert.PairLoss.twoW *
            max (FloatOps.sitofp (F := Ideal) .f32 (v18 (ix3 (0 : Fin 1) (0 : Fin 1) j)) - FloatOps.sitofp (F := Ideal) .f32 (v15 (ix3 (0 : Fin 1) r (0 : Fin 1))))
              (-(FloatOps.sitofp (F := Ideal) .f32 (v18 (ix3 (0 : Fin 1) (0 : Fin 1) j)) - FloatOps.sitofp (F := Ideal) .f32 (v15 (ix3 (0 : Fin 1) r (0 : Fin 1))))))
          ((max (FloatOps.sitofp (F := Ideal) .f32 (v18 (ix3 (0 : Fin 1) (0 : Fin 1) j))) (-(FloatOps.sitofp (F := Ideal) .f32 (v18 (ix3 (0 : Fin 1) (0 : Fin 1) j))))
            + max (FloatOps.sitofp (F := Ideal) .f32 (v15 (ix3 (0 : Fin 1) r (0 : Fin 1)))) (-(FloatOps.sitofp (F := Ideal) .f32 (v15 (ix3 (0 : Fin 1) r (0 : Fin 1))))))
            + Cert.PairLoss.epsVal) := by
  have e20 : broadcastTo S256x1024 (sitofp (F := Ideal) .f32 (shapeCast S1x1024 v18 shapeCasts_S1x1x1024_S1x1024)) broadcasts_S1x1024_S256x1024 (ix2 r j)
      = FloatOps.sitofp (F := Ideal) .f32 (v18 (ix3 (0 : Fin 1) (0 : Fin 1) j)) :=
    (broadcastTo_1b_ab_apply _ broadcasts_S1x1024_S256x1024 r j).trans
      (congrArg (FloatOps.sitofp (F := Ideal) .f32) (shapeCast_1ab_ab_apply v18 shapeCasts_S1x1x1024_S1x1024 (0 : Fin 1) j))
  have e17 : broadcastTo S256x1024 (sitofp (F := Ideal) .f32 (shapeCast S256x1 v15 shapeCasts_S1x256x1_S256x1)) broadcasts_S256x1_S256x1024 (ix2 r j)
      = FloatOps.sitofp (F := Ideal) .f32 (v15 (ix3 (0 : Fin 1) r (0 : Fin 1))) :=
    (broadcastTo_a1_ab_apply _ broadcasts_S256x1_S256x1024 r j).trans
      (congrArg (FloatOps.sitofp (F := Ideal) .f32) (shapeCast_1ab_ab_apply v15 shapeCasts_S1x256x1_S256x1 r (0 : Fin 1)))
  have e27 : broadcastTo S256x1024 (absf (sitofp (F := Ideal) .f32 (shapeCast S1x1024 v18 shapeCasts_S1x1x1024_S1x1024))) broadcasts_S1x1024_S256x1024 (ix2 r j)
      = max (FloatOps.sitofp (F := Ideal) .f32 (v18 (ix3 (0 : Fin 1) (0 : Fin 1) j))) (-(FloatOps.sitofp (F := Ideal) .f32 (v18 (ix3 (0 : Fin 1) (0 : Fin 1) j)))) :=
    (broadcastTo_1b_ab_apply _ broadcasts_S1x1024_S256x1024 r j).trans
      (congrArg (fun z : EReal => max z (-z)) (congrArg (FloatOps.sitofp (F := Ideal) .f32) (shapeCast_1ab_ab_apply v18 shapeCasts_S1x1x1024_S1x1024 (0 : Fin 1) j)))
  have e28 : broadcastTo S256x1024 (absf (sitofp (F := Ideal) .f32 (shapeCast S256x1 v15 shapeCasts_S1x256x1_S256x1))) broadcasts_S256x1_S256x1024 (ix2 r j)
      = max (FloatOps.sitofp (F := Ideal) .f32 (v15 (ix3 (0 : Fin 1) r (0 : Fin 1)))) (-(FloatOps.sitofp (F := Ideal) .f32 (v15 (ix3 (0 : Fin 1) r (0 : Fin 1))))) :=
    (broadcastTo_a1_ab_apply _ broadcasts_S256x1_S256x1024 r j).trans
      (congrArg (fun z : EReal => max z (-z)) (congrArg (FloatOps.sitofp (F := Ideal) .f32) (shapeCast_1ab_ab_apply v15 shapeCasts_S1x256x1_S256x1 r (0 : Fin 1))))
  unfold k1_pay3
  refine (divf_apply _ _ _).trans ?_
  refine congrArg₂ Ideal.div ?_ ?_
  · refine (mulf_apply _ _ _).trans (congrArg₂ (· * ·) rfl ?_)
    show max (_ - _) (-(_ - _)) = _
    exact congrArg (fun z : EReal => max z (-z)) (congrArg₂ (· - ·) e20 e17)
  · refine (addf_apply _ _ _).trans (congrArg₂ (· + ·) ?_ rfl)
    exact (addf_apply _ _ _).trans (congrArg₂ (· + ·) e27 e28)

/-- The row mask words of a tile. -/
theorem pay4_apply (v36 : Vec Ideal S1x256x1 .i32) (r : Fin 256) :
    k1_pay4 (F := Ideal) v36 (ix2 r (0 : Fin 1)) = v36 (ix3 (0 : Fin 1) r (0 : Fin 1)) := by
  unfold k1_pay4
  exact shapeCast_1ab_ab_apply v36 shapeCasts_S1x256x1_S256x1 r (0 : Fin 1)

end Cert.PairLoss.K1

end
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.Accum.lean ====
/-
  The arithmetic of an accumulator that is reset at the first of every four consecutive grid points.

  The running contents start, at a point whose number is a multiple of four, from a starting value `z` plus the point's
  contribution, and otherwise add the point's contribution to what the point before left.  After the fourth point of a
  group the contents are `z` plus the group's four contributions, added in order.  When the contributions are the sums
  of four consecutive stretches of 256 entries of a range of 1024, and `z` is zero, that is the sum over the range.
-/
import Mathlib.Algebra.BigOperators.Fin
import proofs.«115061_j53025666237022_1_alg».proof.Proof.LibBlocks

open Finset

namespace Cert.PairLoss.Accum

variable {M : Type*} [AddCommMonoid M]

/-- The accumulator's contents after point `n`. -/
def run (z : M) (C : ℕ → M) : ℕ → M
  | 0 => z + C 0
  | n + 1 => if (n + 1) % 4 = 0 then z + C (n + 1) else run z C n + C (n + 1)

/-- At the first point of a group the accumulator restarts. -/
theorem run_first (z : M) (C : ℕ → M) (n : ℕ) (h : n % 4 = 0) : run z C n = z + C n := by
  cases n with
  | zero => rfl
  | succ n => exact if_pos h

/-- At any other point it adds the point's contribution. -/
theorem run_next (z : M) (C : ℕ → M) (n : ℕ) (h : ¬(n + 1) % 4 = 0) : run z C (n + 1) = run z C n + C (n + 1) :=
  if_neg h

/-- After the last point of group `b`: the starting value plus the group's four contributions, in order. -/
theorem run_last (z : M) (C : ℕ → M) (b : ℕ) :
    run z C (4 * b + 3) = (((z + C (4 * b)) + C (4 * b + 1)) + C (4 * b + 2)) + C (4 * b + 3) := by
  rw [show 4 * b + 3 = (4 * b + 2) + 1 from rfl, run_next z C (4 * b + 2) (by omega),
    show 4 * b + 2 = (4 * b + 1) + 1 from rfl, run_next z C (4 * b + 1) (by omega),
    show 4 * b + 1 = (4 * b) + 1 from rfl, run_next z C (4 * b) (by omega),
    run_first z C (4 * b) (by omega)]

/-- Four consecutive stretches of 256 entries make up a range of 1024: the stretches' sums, added in order from zero,
    are the range's sum. -/
theorem four_tiles (g : Fin 1024 → M) (P : ℕ → M) (b : ℕ)
    (hP : ∀ t : Fin 4, P (4 * b + t.val) = ∑ r : Fin 256, g ⟨256 * t.val + r.val, by have := t.isLt; have := r.isLt; omega⟩) :
    (((0 + P (4 * b)) + P (4 * b + 1)) + P (4 * b + 2)) + P (4 * b + 3) = ∑ i, g i := by
  have e : ∑ i, g i = ∑ a : Fin 4, ∑ r : Fin 256, g ⟨256 * a.val + r.val, by have := a.isLt; have := r.isLt; omega⟩ := by
    refine (Cert.LibBlocks.sum_entries (A := 4) (B := 256) g).trans ?_
    refine sum_congr rfl fun a _ => sum_congr rfl fun r _ => congrArg g (Fin.ext ?_)
    show a.val * 256 + r.val = 256 * a.val + r.val
    rw [Nat.mul_comm]
  rw [e, Fin.sum_univ_four, zero_add]
  have h0 : P (4 * b) = _ := hP 0
  have h1 : P (4 * b + 1) = _ := hP 1
  have h2 : P (4 * b + 2) = _ := hP 2
  have h3 : P (4 * b + 3) = _ := hP 3
  rw [h0, h1, h2, h3]

end Cert.PairLoss.Accum
-- ==== Proof.Region1Acc.lean ====
/-
  The pairwise kernel's output array after its region.

  The output block of batch entry b is visited by four consecutive grid points, one per tile of 256 rows, and is
  written back after the fourth.  In lanes 0 and 1 the block's contents after a point are the running sums of the
  points' contributions, restarted from the zero word at the first tile; so the output array ends holding, at
  (b, 0, 0) and (b, 0, 1), the zero word plus the four tiles' contributions of batch entry b, added in order.
-/
import proofs.«115061_j53025666237022_1_alg».proof.Proof.Gen.KernelIdeal.Frame
import proofs.«115061_j53025666237022_1_alg».proof.Proof.Region1Body
import proofs.«115061_j53025666237022_1_alg».proof.Proof.Region1Pay
import proofs.«115061_j53025666237022_1_alg».proof.Proof.Accum
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.PairLoss.K1

open Cert.KernelIdeal Cert.KernelIdeal.Gen

/-! ## One point's contribution, from its blocks -/

/-- The rows of tile `i 1` of the normalized block. -/
abbrev R1 (i : grid1.Coords) : Rect S1x1024x768 := Rect.unit (s := S1x1024x768) (k1_off1 i) S1x256x768.size (k1_off1_inb i)
/-- The rows of tile `i 1` of a label or mask column. -/
abbrev R2 (i : grid1.Coords) : Rect S1x1024x1 := Rect.unit (s := S1x1024x1) (k1_off2 i) S1x256x1.size (k1_off2_inb i)

/-- The weight of tile row r and column j. -/
def wBlk (i : grid1.Coords) (x3 : Vec Ideal S1x1024x1 .i32) (x4 : Vec Ideal S1x1x1024 .i32) (r : Fin 256) (j : Fin 1024) : EReal :=
  (FloatOps.sitofp (F := Ideal) .f32 (View.ld x3 (R2 i) (ix3 (0 : Fin 1) r (0 : Fin 1))) * FloatOps.sitofp (F := Ideal) .f32 (x4 (ix3 (0 : Fin 1) (0 : Fin 1) j)))
    * FloatOps.sitofp (F := Ideal) .f32
        ((IntOp.cmpi .slt (IntOp.addi (BitVec.ofNat 32 r.val) (Scalar.muli (BitVec.ofNat 32 (i 1).val) 256#32)) (BitVec.ofNat 32 j.val)).setWidth 32)

/-- Cosine distance less relative distance, for tile row r and column j. -/
def dBlk (i : grid1.Coords) (x0 : Vec Ideal S1x1024x768 .bf16) (x1 : Vec Ideal S1x1024x1 .i32) (x2 : Vec Ideal S1x1x1024 .i32)
    (r : Fin 256) (j : Fin 1024) : EReal :=
  (Cert.PairLoss.oneW - ∑ h : Fin 768, View.ld x0 (R1 i) (ix3 (0 : Fin 1) r h) * x0 (ix3 (0 : Fin 1) j h))
    - Ideal.div (Cert.PairLoss.twoW *
          max (FloatOps.sitofp (F := Ideal) .f32 (x2 (ix3 (0 : Fin 1) (0 : Fin 1) j)) - FloatOps.sitofp (F := Ideal) .f32 (View.ld x1 (R2 i) (ix3 (0 : Fin 1) r (0 : Fin 1))))
            (-(FloatOps.sitofp (F := Ideal) .f32 (x2 (ix3 (0 : Fin 1) (0 : Fin 1) j)) - FloatOps.sitofp (F := Ideal) .f32 (View.ld x1 (R2 i) (ix3 (0 : Fin 1) r (0 : Fin 1))))))
        ((max (FloatOps.sitofp (F := Ideal) .f32 (x2 (ix3 (0 : Fin 1) (0 : Fin 1) j))) (-(FloatOps.sitofp (F := Ideal) .f32 (x2 (ix3 (0 : Fin 1) (0 : Fin 1) j))))
          + max (FloatOps.sitofp (F := Ideal) .f32 (View.ld x1 (R2 i) (ix3 (0 : Fin 1) r (0 : Fin 1)))) (-(FloatOps.sitofp (F := Ideal) .f32 (View.ld x1 (R2 i) (ix3 (0 : Fin 1) r (0 : Fin 1))))))
          + Cert.PairLoss.epsVal)

/-- A point's contribution to lane 0: the tile's sum of squared differences times weights. -/
def contrib0 (i : grid1.Coords) (x0 : Vec Ideal S1x1024x768 .bf16) (x1 : Vec Ideal S1x1024x1 .i32) (x2 : Vec Ideal S1x1x1024 .i32)
    (x3 : Vec Ideal S1x1024x1 .i32) (x4 : Vec Ideal S1x1x1024 .i32) : EReal :=
  ∑ r : Fin 256, ∑ j : Fin 1024, (dBlk i x0 x1 x2 r j * dBlk i x0 x1 x2 r j) * wBlk i x3 x4 r j

/-- A point's contribution to lane 1: the tile's sum of weights. -/
def contrib1 (i : grid1.Coords) (x0 : Vec Ideal S1x1024x768 .bf16) (x1 : Vec Ideal S1x1024x1 .i32) (x2 : Vec Ideal S1x1x1024 .i32)
    (x3 : Vec Ideal S1x1024x1 .i32) (x4 : Vec Ideal S1x1x1024 .i32) : EReal :=
  ∑ r : Fin 256, ∑ j : Fin 1024, wBlk i x3 x4 r j

theorem mask_eq (i : grid1.Coords) (x3 : Vec Ideal S1x1024x1 .i32) (x4 : Vec Ideal S1x1x1024 .i32) (r : Fin 256) (j : Fin 1024) :
    maskK (Scalar.muli (BitVec.ofNat 32 (i 1).val) 256#32) (k1_pay4 (F := Ideal) (View.ld x3 (R2 i))) x4 (ix2 r j) = wBlk i x3 x4 r j := by
  refine (maskK_apply _ _ x4 r j).trans ?_
  rw [pay4_apply]
  rfl

/-- Lane 0 after the body: the accumulator's lane 0 plus the point's contribution. -/
theorem body1_lane0 (i : grid1.Coords) (x0 : Vec Ideal S1x1024x768 .bf16) (x1 : Vec Ideal S1x1024x1 .i32) (x2 : Vec Ideal S1x1x1024 .i32)
    (x3 : Vec Ideal S1x1024x1 .i32) (x4 : Vec Ideal S1x1x1024 .i32) (acc : Vec Ideal S1x1x128 .f32) :
    body1 i x0 x1 x2 x3 x4 acc (ix3 (0 : Fin 1) (0 : Fin 1) (0 : Fin 128))
      = acc (ix3 (0 : Fin 1) (0 : Fin 1) (0 : Fin 128)) + contrib0 i x0 x1 x2 x3 x4 := by
  unfold body1
  rw [pay5_eq]
  refine (lanes_apply0 _ _ _).trans ?_
  refine congrArg (acc (ix3 (0 : Fin 1) (0 : Fin 1) (0 : Fin 128)) + ·) ?_
  refine (sumAll_apply _).trans ?_
  unfold contrib0
  refine Finset.sum_congr rfl fun r _ => Finset.sum_congr rfl fun j _ => ?_
  refine (mulf_apply _ _ _).trans ?_
  refine congrArg₂ (· * ·) ?_ (mask_eq i x3 x4 r j)
  refine (mulf_apply _ _ _).trans ?_
  have e : subf (k1_pay2 x0 (View.ld x0 (R1 i))) (k1_pay3 (View.ld x1 (R2 i)) x2) (ix2 r j) = dBlk i x0 x1 x2 r j :=
    (subf_apply _ _ _).trans (congrArg₂ (· - ·) (pay2_apply x0 (View.ld x0 (R1 i)) r j) (pay3_apply (View.ld x1 (R2 i)) x2 r j))
  exact congrArg₂ (· * ·) e e

/-- Lane 1 after the body: the accumulator's lane 1 plus the tile's sum of weights. -/
theorem body1_lane1 (i : grid1.Coords) (x0 : Vec Ideal S1x1024x768 .bf16) (x1 : Vec Ideal S1x1024x1 .i32) (x2 : Vec Ideal S1x1x1024 .i32)
    (x3 : Vec Ideal S1x1024x1 .i32) (x4 : Vec Ideal S1x1x1024 .i32) (acc : Vec Ideal S1x1x128 .f32) :
    body1 i x0 x1 x2 x3 x4 acc (ix3 (0 : Fin 1) (0 : Fin 1) (1 : Fin 128))
      = acc (ix3 (0 : Fin 1) (0 : Fin 1) (1 : Fin 128)) + contrib1 i x0 x1 x2 x3 x4 := by
  unfold body1
  rw [pay5_eq]
  refine (lanes_apply1 _ _ _).trans ?_
  refine congrArg (acc (ix3 (0 : Fin 1) (0 : Fin 1) (1 : Fin 128)) + ·) ?_
  refine (sumAll_apply _).trans ?_
  unfold contrib1
  exact Finset.sum_congr rfl fun r _ => Finset.sum_congr rfl fun j _ => mask_eq i x3 x4 r j

/-! ## The running sums over the grid -/

section Region
variable (V : (c : Dev nD) → (b : Ref sig .tc) → Buf (Elt Ideal) ((c : Thread nD τ).loc b))

/-- The zero word. -/
def zeroW : EReal := Ideal.ofBits .f32 0x00000000#32

/-- Point `k`'s contribution to lane 0, from the region's arrays. -/
def C0 (c : Dev nD) (k : ℕ) : EReal :=
  if hk : k < cfg1.N then contrib0 (grid1.coords ⟨k, hk⟩) (iblk1 V c 0 ⟨k, hk⟩) (iblk1 V c 1 ⟨k, hk⟩) (iblk1 V c 2 ⟨k, hk⟩) (iblk1 V c 3 ⟨k, hk⟩) (iblk1 V c 4 ⟨k, hk⟩) else 0
/-- Point `k`'s contribution to lane 1, from the region's arrays. -/
def C1 (c : Dev nD) (k : ℕ) : EReal :=
  if hk : k < cfg1.N then contrib1 (grid1.coords ⟨k, hk⟩) (iblk1 V c 0 ⟨k, hk⟩) (iblk1 V c 1 ⟨k, hk⟩) (iblk1 V c 2 ⟨k, hk⟩) (iblk1 V c 3 ⟨k, hk⟩) (iblk1 V c 4 ⟨k, hk⟩) else 0

/-- A first tile leaves, in lane 0, the zero word plus its contribution. -/
theorem step_A0 (c : Dev nD) (t : Fin cfg1.N) (h0 : t.val % 4 = 0) :
    outsAt1 V c t.val t.isLt (ix3 (0 : Fin 1) (0 : Fin 1) (0 : Fin 128)) = zeroW + C0 V c t.val := by
  refine (congrFun (outsAt1_A V c t h0) (ix3 (0 : Fin 1) (0 : Fin 1) (0 : Fin 128))).trans ?_
  refine (congrFun (out_A c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t) (iblk1 V c 4 t)) (ix3 (0 : Fin 1) (0 : Fin 1) (0 : Fin 128))).trans ?_
  refine (body1_lane0 (grid1.coords t) (iblk1 V c 0 t) (iblk1 V c 1 t) (iblk1 V c 2 t) (iblk1 V c 3 t) (iblk1 V c 4 t) (k1_pay1 (F := Ideal))).trans ?_
  unfold C0
  rw [dif_pos t.isLt]
  rfl

/-- A later tile adds, in lane 0, its contribution to what the point before left. -/
theorem step_B0 (c : Dev nD) (t : Fin cfg1.N) (h0 : ¬t.val % 4 = 0) :
    outsAt1 V c t.val t.isLt (ix3 (0 : Fin 1) (0 : Fin 1) (0 : Fin 128))
      = outsAt1 V c (t.val - 1) (Nat.lt_of_le_of_lt (Nat.sub_le _ _) t.isLt) (ix3 (0 : Fin 1) (0 : Fin 1) (0 : Fin 128)) + C0 V c t.val := by
  refine (congrFun (outsAt1_B V c t h0) (ix3 (0 : Fin 1) (0 : Fin 1) (0 : Fin 128))).trans ?_
  refine (congrFun (out_B c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt))) (ix3 (0 : Fin 1) (0 : Fin 1) (0 : Fin 128))).trans ?_
  refine (body1_lane0 (grid1.coords t) (iblk1 V c 0 t) (iblk1 V c 1 t) (iblk1 V c 2 t) (iblk1 V c 3 t) (iblk1 V c 4 t) (outsAt1 V c (t.val - 1) (Nat.lt_of_le_of_lt (Nat.sub_le _ _) t.isLt))).trans ?_
  unfold C0
  rw [dif_pos t.isLt]

/-- Lane 0 of the accumulator after point `n` is the running sum of the contributions. -/
theorem outsAt_lane0 (c : Dev nD) : ∀ (n : ℕ) (hn : n < cfg1.N),
    outsAt1 V c n hn (ix3 (0 : Fin 1) (0 : Fin 1) (0 : Fin 128)) = Accum.run zeroW (C0 V c) n
  | 0, hn => (step_A0 V c ⟨0, hn⟩ rfl).trans (Accum.run_first zeroW (C0 V c) 0 rfl).symm
  | n + 1, hn => by
    by_cases h0 : (n + 1) % 4 = 0
    · exact (step_A0 V c ⟨n + 1, hn⟩ h0).trans (Accum.run_first zeroW (C0 V c) (n + 1) h0).symm
    · rw [Accum.run_next zeroW (C0 V c) n h0]
      refine (step_B0 V c ⟨n + 1, hn⟩ h0).trans ?_
      show outsAt1 V c n _ (ix3 (0 : Fin 1) (0 : Fin 1) (0 : Fin 128)) + _ = _
      rw [outsAt_lane0 c n]

/-- A first tile leaves, in lane 1, the zero word plus its contribution. -/
theorem step_A1 (c : Dev nD) (t : Fin cfg1.N) (h0 : t.val % 4 = 0) :
    outsAt1 V c t.val t.isLt (ix3 (0 : Fin 1) (0 : Fin 1) (1 : Fin 128)) = zeroW + C1 V c t.val := by
  refine (congrFun (outsAt1_A V c t h0) (ix3 (0 : Fin 1) (0 : Fin 1) (1 : Fin 128))).trans ?_
  refine (congrFun (out_A c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t) (iblk1 V c 3 t) (iblk1 V c 4 t)) (ix3 (0 : Fin 1) (0 : Fin 1) (1 : Fin 128))).trans ?_
  refine (body1_lane1 (grid1.coords t) (iblk1 V c 0 t) (iblk1 V c 1 t) (iblk1 V c 2 t) (iblk1 V c 3 t) (iblk1 V c 4 t) (k1_pay1 (F := Ideal))).trans ?_
  unfold C1
  rw [dif_pos t.isLt]
  rfl

/-- A later tile adds, in lane 1, its contribution to what the point before left. -/
theorem step_B1 (c : Dev nD) (t : Fin cfg1.N) (h0 : ¬t.val % 4 = 0) :
    outsAt1 V c t.val t.isLt (ix3 (0 : Fin 1) (0 : Fin 1) (1 : Fin 128))
      = outsAt1 V c (t.val - 1) (Nat.lt_of_le_of_lt (Nat.sub_le _ _) t.isLt) (ix3 (0 : Fin 1) (0 : Fin 1) (1 : Fin 128)) + C1 V c t.val := by
  refine (congrFun (outsAt1_B V c t h0) (ix3 (0 : Fin 1) (0 : Fin 1) (1 : Fin 128))).trans ?_
  refine (congrFun (out_B c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt))) (ix3 (0 : Fin 1) (0 : Fin 1) (1 : Fin 128))).trans ?_
  refine (body1_lane1 (grid1.coords t) (iblk1 V c 0 t) (iblk1 V c 1 t) (iblk1 V c 2 t) (iblk1 V c 3 t) (iblk1 V c 4 t) (outsAt1 V c (t.val - 1) (Nat.lt_of_le_of_lt (Nat.sub_le _ _) t.isLt))).trans ?_
  unfold C1
  rw [dif_pos t.isLt]

/-- Lane 1 of the accumulator after point `n` is the running sum of the contributions. -/
theorem outsAt_lane1 (c : Dev nD) : ∀ (n : ℕ) (hn : n < cfg1.N),
    outsAt1 V c n hn (ix3 (0 : Fin 1) (0 : Fin 1) (1 : Fin 128)) = Accum.run zeroW (C1 V c) n
  | 0, hn => (step_A1 V c ⟨0, hn⟩ rfl).trans (Accum.run_first zeroW (C1 V c) 0 rfl).symm
  | n + 1, hn => by
    by_cases h0 : (n + 1) % 4 = 0
    · exact (step_A1 V c ⟨n + 1, hn⟩ h0).trans (Accum.run_first zeroW (C1 V c) (n + 1) h0).symm
    · rw [Accum.run_next zeroW (C1 V c) n h0]
      refine (step_B1 V c ⟨n + 1, hn⟩ h0).trans ?_
      show outsAt1 V c n _ (ix3 (0 : Fin 1) (0 : Fin 1) (1 : Fin 128)) + _ = _
      rw [outsAt_lane1 c n]

/-! ## From the accumulator block to the output array -/

/-- The output window's block index at point `t`: batch entry `t / 4`, the only block along the other axes. -/
theorem idx5 : ∀ t : Fin cfg1.N, win1_5.index t (0 : Fin 3) = t.val / 4 ∧ win1_5.index t (1 : Fin 3) = 0 ∧ win1_5.index t (2 : Fin 3) = 0 :=
  (by decide +kernel : ∀ t : Fin grid1.N, win1_5.index t (0 : Fin 3) = t.val / 4 ∧ win1_5.index t (1 : Fin 3) = 0 ∧ win1_5.index t (2 : Fin 3) = 0)

theorem outsAt1_congr (c : Dev nD) (n n' : ℕ) (h : n = n') (hn : n < cfg1.N) (hn' : n' < cfg1.N) (y y' : S1x1x128.Idx) (hy : y = y') :
    outsAt1 V c n hn y = outsAt1 V c n' hn' y' := by
  subst h; subst hy; rfl

/-- What the output array ends holding: at (b, ·, l) the accumulator block's lane l after the last tile of batch entry b. -/
def G5 (c : Dev nD) : S32x1x128.Idx → EReal := fun i =>
  outsAt1 V c (4 * (i 0).val + 3) (by have h : (i 0).val < 32 := (i 0).isLt; rw [show cfg1.N = 128 from N_1]; omega)
    (ix3 (0 : Fin 1) (0 : Fin 1) (i 2))

/-- A write-back writes the block of `G5` at its point. -/
theorem flushed5_eq (c : Dev nD) (t : Fin cfg1.N) (hf : (cfg1.win 5).flush t = true) :
    (dat1 V c).flushed 5 t = ((cfg1.win 5).blk t).view.read (Elt Ideal) (G5 V c) := by
  have h3 : t.val % 4 = 3 := (flush1_5 t).mp hf
  obtain ⟨e0, e1, e2⟩ := idx5 t
  show (cfg1.win 5).cut (grid1.coords t) ((dat1 V c).after 5 t) = _
  rw [after1_5]
  funext y
  show outsAt1 V c t.val t.isLt y = G5 V c (((cfg1.win 5).blk t).view.emb y)
  unfold G5
  have hy0 : (y 0).val = 0 := by have : (y 0).val < 1 := (y 0).isLt; omega
  have hy1 : (y 1).val = 0 := by have : (y 1).val < 1 := (y 1).isLt; omega
  have hb0 : ((((cfg1.win 5).blk t).view.emb y) 0).val = t.val / 4 := by
    show win1_5.index t (0 : Fin 3) * 1 + 1 * (y 0).val = t.val / 4
    omega
  have hb2 : ((((cfg1.win 5).blk t).view.emb y) 2).val = (y 2).val := by
    show win1_5.index t (2 : Fin 3) * 128 + 1 * (y 2).val = (y 2).val
    omega
  refine outsAt1_congr V c _ _ (by rw [hb0]; omega) _ _ _ _ ?_
  funext a
  refine Fin.ext ?_
  match a with
  | ⟨0, _⟩ => exact hy0
  | ⟨1, _⟩ => exact hy1
  | ⟨2, _⟩ => exact hb2.symm

/-- An index of the output array is in point `t`'s block iff each coordinate is in the block's range. -/
theorem mem_blk5 (t : Fin cfg1.N) (i : S32x1x128.Idx) :
    i ∈ ((cfg1.win 5).blk t).view.set ↔ ∀ a : Fin 3, win1_5.index t a * S1x1x128.size a ≤ (i a).val ∧ (i a).val < win1_5.index t a * S1x1x128.size a + S1x1x128.size a := by
  show i ∈ ((View.whole main_v6).slice (win1_5.rect t)).set ↔ _
  rw [View.set_slice_whole, Rect.mem_set_unit]
  exact Iff.rfl

/-- The output array after the region. -/
theorem final5 (c : Dev nD) : (dat1 V c).arrAt 5 cfg1.N = G5 V c :=
  (dat1 V c).arrAt_eq_of_cover 5 (G5 V c) (flushed5_eq V c) fun i => by
    have hi0 : (i 0).val < 32 := (i 0).isLt
    have hi1 : (i 1).val < 1 := (i 1).isLt
    have hi2 : (i 2).val < 128 := (i 2).isLt
    have hN : cfg1.N = 128 := N_1
    refine ⟨⟨4 * (i 0).val + 3, lt_of_lt_of_eq (by omega : 4 * (i 0).val + 3 < 128) N_1.symm⟩, (flush1_5 _).mpr (by show (4 * (i 0).val + 3) % 4 = 3; omega), ?_⟩
    rw [mem_blk5]
    obtain ⟨e0, e1, e2⟩ := idx5 ⟨4 * (i 0).val + 3, lt_of_lt_of_eq (by omega : 4 * (i 0).val + 3 < 128) N_1.symm⟩
    have e0' : win1_5.index ⟨4 * (i 0).val + 3, lt_of_lt_of_eq (by omega : 4 * (i 0).val + 3 < 128) N_1.symm⟩ (0 : Fin 3) = (i 0).val := by rw [e0]; show (4 * (i 0).val + 3) / 4 = _; omega
    intro a
    match a with
    | ⟨0, _⟩ => show win1_5.index _ (0 : Fin 3) * 1 ≤ (i 0).val ∧ (i 0).val < win1_5.index _ (0 : Fin 3) * 1 + 1; rw [e0']; omega
    | ⟨1, _⟩ => show win1_5.index _ (1 : Fin 3) * 1 ≤ (i 1).val ∧ (i 1).val < win1_5.index _ (1 : Fin 3) * 1 + 1; rw [e1]; omega
    | ⟨2, _⟩ => show win1_5.index _ (2 : Fin 3) * 128 ≤ (i 2).val ∧ (i 2).val < win1_5.index _ (2 : Fin 3) * 128 + 128; rw [e2]; omega

/-- Lane 0 of batch entry b. -/
theorem arr5_lane0 (c : Dev nD) (b : Fin 32) :
    (dat1 V c).arrAt 5 cfg1.N (ix3 b (0 : Fin 1) (0 : Fin 128)) = Accum.run zeroW (C0 V c) (4 * b.val + 3) := by
  rw [final5]
  exact outsAt_lane0 V c (4 * b.val + 3) _

/-- Lane 1 of batch entry b. -/
theorem arr5_lane1 (c : Dev nD) (b : Fin 32) :
    (dat1 V c).arrAt 5 cfg1.N (ix3 b (0 : Fin 1) (1 : Fin 128)) = Accum.run zeroW (C1 V c) (4 * b.val + 3) := by
  rw [final5]
  exact outsAt_lane1 V c (4 * b.val + 3) _

end Region

end Cert.PairLoss.K1

end
-- ==== Proof.KWeight.lean ====
/-
  The pair weight as the kernel writes it, a fact about words.

  The two mask bits, widened to 32 bits and converted to numbers, are multiplied with the converted bit of the signed
  comparison "row < column", the row being 256·t + r for a tile t below 4 and an offset r below 256. All numbers
  involved are below 2^31, so the signed comparison is the comparison of the natural numbers, and the product of the
  three 0/1 numbers is one exactly when both bits are set and the row is before the column.
-/
import Idealize.ShloMosaic.PureOps.Ideal
import Idealize.ShloMosaic.PureOps.Ideal.Laws
import Idealize.ShloMosaic.Lib.ValueIdx

noncomputable section

namespace Cert.PairLoss.K1w

open Idealize.ShloMosaic Idealize.ShloMosaic.ValueIdx

/-- A number below 2^31 written as a 32-bit word reads back, signed, as itself. -/
theorem toInt_ofNat_lt (n : Nat) (hn : n < 2147483648) : (BitVec.ofNat 32 n).toInt = (n : Int) := by
  have h1 : (BitVec.ofNat 32 n).toNat = n := by rw [BitVec.toNat_ofNat]; exact Nat.mod_eq_of_lt (by omega)
  rw [BitVec.toInt_eq_toNat_of_lt (by rw [h1]; omega), h1]

/-- The row index 256·t + r as the kernel computes it in 32-bit words. -/
theorem row_word (t r : Nat) (ht : t < 4) (hr : r < 256) :
    IntOp.addi (BitVec.ofNat 32 r) (Scalar.muli (BitVec.ofNat 32 t) 256#32) = BitVec.ofNat 32 (256 * t + r) := by
  unfold IntOp.addi Scalar.muli IntOp.muli
  apply BitVec.eq_of_toNat_eq
  simp only [BitVec.toNat_add, BitVec.toNat_mul, BitVec.toNat_ofNat]
  omega

/-- The signed comparison "row < column" of the kernel is the comparison of the numbers. -/
theorem cmp_word (t r j : ℕ) (ht : t < 4) (hr : r < 256) (hj : j < 1024) :
    IntOp.cmpi .slt (IntOp.addi (BitVec.ofNat 32 r) (Scalar.muli (BitVec.ofNat 32 t) 256#32)) (BitVec.ofNat 32 j)
      = BitVec.ofBool (decide (256 * t + r < j)) := by
  rw [row_word t r ht hr]
  unfold IntOp.cmpi
  show BitVec.ofBool ((BitVec.ofNat 32 (256 * t + r)).slt (BitVec.ofNat 32 j)) = _
  rw [BitVec.slt_eq_decide, toInt_ofNat_lt (256 * t + r) (by omega), toInt_ofNat_lt j (by omega)]
  exact congrArg BitVec.ofBool (decide_eq_decide.mpr Int.ofNat_lt)

/-- The comparison word, widened and converted to a number, is one when the row is before the column, else zero. -/
theorem kcmp (t r j : ℕ) (ht : t < 4) (hr : r < 256) (hj : j < 1024) :
    FloatOps.sitofp (F := Ideal) .f32 ((IntOp.cmpi .slt (IntOp.addi (BitVec.ofNat 32 r) (Scalar.muli (BitVec.ofNat 32 t) 256#32)) (BitVec.ofNat 32 j)).setWidth 32)
      = if 256 * t + r < j then (1 : EReal) else 0 := by
  rw [cmp_word t r j ht hr hj]
  show ((((BitVec.ofBool (decide (256 * t + r < j))).setWidth 32).toInt : ℝ) : EReal) = _
  by_cases h : 256 * t + r < j <;> simp [h]

/-- The two mask bits, widened and converted to numbers, times a 0/1 number: one exactly when both bits are set and
    the condition holds. -/
theorem kbits (p q : BitVec 1) (P : Prop) [Decidable P] :
    (FloatOps.sitofp (F := Ideal) .f32 (p.setWidth 32) * FloatOps.sitofp (F := Ideal) .f32 (q.setWidth 32)) * (if P then (1 : EReal) else 0)
      = if p = 1#1 ∧ q = 1#1 ∧ P then (1 : EReal) else 0 := by
  show (((p.setWidth 32).toInt : ℝ) : EReal) * (((q.setWidth 32).toInt : ℝ) : EReal) * (if P then (1 : EReal) else 0) = _
  rcases BitVec.eq_zero_or_eq_one p with rfl | rfl <;> rcases BitVec.eq_zero_or_eq_one q with rfl | rfl <;>
    by_cases h : P <;> simp [h]

/-- The weight of a pair as the kernel computes it. -/
theorem kweight (p q : BitVec 1) (t r j : ℕ) (ht : t < 4) (hr : r < 256) (hj : j < 1024) :
    (FloatOps.sitofp (F := Ideal) .f32 (p.setWidth 32) * FloatOps.sitofp (F := Ideal) .f32 (q.setWidth 32))
      * FloatOps.sitofp (F := Ideal) .f32 ((IntOp.cmpi .slt (IntOp.addi (BitVec.ofNat 32 r) (Scalar.muli (BitVec.ofNat 32 t) 256#32)) (BitVec.ofNat 32 j)).setWidth 32)
      = if p = 1#1 ∧ q = 1#1 ∧ 256 * t + r < j then (1 : EReal) else 0 := by
  rw [kcmp t r j ht hr hj, kbits]

end Cert.PairLoss.K1w

end
-- ==== Proof.Region1Arr.lean ====
/-
  The pairwise kernel's output array as sums over the region's arrays.

  At grid point n the blocks are those of batch entry n / 4, and the tile's row r is row 256·(n mod 4) + r of the
  arrays.  Read through the blocks, a point's contribution to lane 0 is the sum, over the tile's rows i and all columns
  j, of the squared difference of cosine distance and relative distance times the weight of (i, j); to lane 1, the sum
  of the weights.  The four tiles of a batch entry are the four stretches of 256 rows, so the output array holds at
  (b, 0, 0) the sum over all pairs (i, j) and at (b, 0, 1) the sum of all weights.
-/
import proofs.«115061_j53025666237022_1_alg».proof.Proof.Region1Acc
import proofs.«115061_j53025666237022_1_alg».proof.Proof.KWeight

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.PairLoss.K1

open Cert.KernelIdeal Cert.KernelIdeal.Gen

/-! ## The shape of one pair's term -/

/-- Cosine distance less relative distance, from the two rows and the two labels as numbers. -/
def dForm (a b' : Fin 768 → EReal) (gi gj : EReal) : EReal :=
  (Cert.PairLoss.oneW - ∑ h : Fin 768, a h * b' h)
    - Ideal.div (Cert.PairLoss.twoW * max (gj - gi) (-(gj - gi))) ((max gj (-gj) + max gi (-gi)) + Cert.PairLoss.epsVal)

theorem dForm_congr {a a' b b' : Fin 768 → EReal} {gi gi' gj gj' : EReal} (ha : a = a') (hb : b = b') (hi : gi = gi') (hj : gj = gj') :
    dForm a b gi gj = dForm a' b' gi' gj' := by subst ha; subst hb; subst hi; subst hj; rfl

theorem dBlk_eq_dForm (i : grid1.Coords) (x0 : Vec Ideal S1x1024x768 .bf16) (x1 : Vec Ideal S1x1024x1 .i32) (x2 : Vec Ideal S1x1x1024 .i32)
    (r : Fin 256) (j : Fin 1024) :
    dBlk i x0 x1 x2 r j
      = dForm (fun h => View.ld x0 (R1 i) (ix3 (0 : Fin 1) r h)) (fun h => x0 (ix3 (0 : Fin 1) j h))
          (FloatOps.sitofp (F := Ideal) .f32 (View.ld x1 (R2 i) (ix3 (0 : Fin 1) r (0 : Fin 1))))
          (FloatOps.sitofp (F := Ideal) .f32 (x2 (ix3 (0 : Fin 1) (0 : Fin 1) j))) := rfl

/-! ## A tile's loads -/

/-- Row r of tile τ is row 256·τ + r. -/
def tileRow (τ : ℕ) (hτ : τ < 4) (r : Fin 256) : Fin 1024 := ⟨256 * τ + r.val, by have := r.isLt; omega⟩

theorem ld_R1 (i : grid1.Coords) (x : Vec Ideal S1x1024x768 .bf16) (r : Fin 256) (h : Fin 768) (τ : ℕ) (hτ : τ < 4) (hi : (i 1).val = τ) :
    View.ld x (R1 i) (ix3 (0 : Fin 1) r h) = x (ix3 (0 : Fin 1) (tileRow τ hτ r) h) := by
  show x ((R1 i).idx (ix3 (0 : Fin 1) r h)) = _
  refine congrArg x (funext fun a => Fin.ext ?_)
  match a with
  | ⟨0, _⟩ => show (k1_off1 i) 0 + 1 * (0 : Fin 1).val = (0 : Fin 1).val; rw [k1_off1_eq]; rfl
  | ⟨1, _⟩ => show (k1_off1 i) 1 + 1 * r.val = 256 * τ + r.val; rw [k1_off1_eq, ← hi]; show 256 * (i 1).val + 1 * r.val = _; omega
  | ⟨2, _⟩ => show (k1_off1 i) 2 + 1 * h.val = h.val; rw [k1_off1_eq]; show 0 + 1 * h.val = _; omega

theorem ld_R2 (i : grid1.Coords) (x : Vec Ideal S1x1024x1 .i32) (r : Fin 256) (τ : ℕ) (hτ : τ < 4) (hi : (i 1).val = τ) :
    View.ld x (R2 i) (ix3 (0 : Fin 1) r (0 : Fin 1)) = x (ix3 (0 : Fin 1) (tileRow τ hτ r) (0 : Fin 1)) := by
  show x ((R2 i).idx (ix3 (0 : Fin 1) r (0 : Fin 1))) = _
  refine congrArg x (funext fun a => Fin.ext ?_)
  match a with
  | ⟨0, _⟩ => show (k1_off2 i) 0 + 1 * (0 : Fin 1).val = (0 : Fin 1).val; rw [k1_off2_eq]; rfl
  | ⟨1, _⟩ => show (k1_off2 i) 1 + 1 * r.val = 256 * τ + r.val; rw [k1_off2_eq, ← hi]; show 256 * (i 1).val + 1 * r.val = _; omega
  | ⟨2, _⟩ => show (k1_off2 i) 2 + 1 * (0 : Fin 1).val = (0 : Fin 1).val; rw [k1_off2_eq]; rfl

/-! ## The grid and the blocks -/

/-- The five input windows' block indices at point `t`: batch entry `t / 4`, the only block along the other axes. -/
theorem idxIn : ∀ t : Fin cfg1.N,
    (win1_0.index t (0 : Fin 3) = t.val / 4 ∧ win1_0.index t (1 : Fin 3) = 0 ∧ win1_0.index t (2 : Fin 3) = 0)
    ∧ (win1_1.index t (0 : Fin 3) = t.val / 4 ∧ win1_1.index t (1 : Fin 3) = 0 ∧ win1_1.index t (2 : Fin 3) = 0)
    ∧ (win1_2.index t (0 : Fin 3) = t.val / 4 ∧ win1_2.index t (1 : Fin 3) = 0 ∧ win1_2.index t (2 : Fin 3) = 0)
    ∧ (win1_3.index t (0 : Fin 3) = t.val / 4 ∧ win1_3.index t (1 : Fin 3) = 0 ∧ win1_3.index t (2 : Fin 3) = 0)
    ∧ (win1_4.index t (0 : Fin 3) = t.val / 4 ∧ win1_4.index t (1 : Fin 3) = 0 ∧ win1_4.index t (2 : Fin 3) = 0) :=
  (by decide +kernel : ∀ t : Fin grid1.N, _)

/-- The tile of point `t` is `t mod 4`. -/
theorem coords1 : ∀ t : Fin cfg1.N, ((grid1.coords t) 1).val = t.val % 4 :=
  (by decide +kernel : ∀ t : Fin grid1.N, ((grid1.coords t) 1).val = t.val % 4)

/-- The batch entry of point `t`. -/
def bOf (t : Fin cfg1.N) : Fin 32 := ⟨t.val / 4, by have h : t.val < 128 := lt_of_lt_of_eq t.isLt N_1; omega⟩

section Region
variable (V : (c : Dev nD) → (b : Ref sig .tc) → Buf (Elt Ideal) ((c : Thread nD τ).loc b))

theorem blk0_apply (c : Dev nD) (t : Fin cfg1.N) (u : Fin 1) (k : Fin 1024) (h : Fin 768) :
    iblk1 V c 0 t (ix3 u k h) = V c main_v0 (ix3 (bOf t) k h) := by
  obtain ⟨e0, e1, e2⟩ := (idxIn t).1
  have hu : u.val = 0 := by have := u.isLt; omega
  show V c main_v0 (((cfg1.win 0).blk t).view.emb (ix3 u k h)) = _
  refine congrArg (V c main_v0) (funext fun a => Fin.ext ?_)
  match a with
  | ⟨0, _⟩ => show win1_0.index t (0 : Fin 3) * 1 + 1 * u.val = t.val / 4; omega
  | ⟨1, _⟩ => show win1_0.index t (1 : Fin 3) * 1024 + 1 * k.val = k.val; omega
  | ⟨2, _⟩ => show win1_0.index t (2 : Fin 3) * 768 + 1 * h.val = h.val; omega

theorem blk1_apply (c : Dev nD) (t : Fin cfg1.N) (u : Fin 1) (k : Fin 1024) (h : Fin 1) :
    iblk1 V c 1 t (ix3 u k h) = V c main_v2 (ix3 (bOf t) k h) := by
  obtain ⟨e0, e1, e2⟩ := (idxIn t).2.1
  have hu : u.val = 0 := by have := u.isLt; omega
  show V c main_v2 (((cfg1.win 1).blk t).view.emb (ix3 u k h)) = _
  refine congrArg (V c main_v2) (funext fun a => Fin.ext ?_)
  match a with
  | ⟨0, _⟩ => show win1_1.index t (0 : Fin 3) * 1 + 1 * u.val = t.val / 4; omega
  | ⟨1, _⟩ => show win1_1.index t (1 : Fin 3) * 1024 + 1 * k.val = k.val; omega
  | ⟨2, _⟩ => show win1_1.index t (2 : Fin 3) * 1 + 1 * h.val = h.val; omega

theorem blk2_apply (c : Dev nD) (t : Fin cfg1.N) (u : Fin 1) (k : Fin 1) (h : Fin 1024) :
    iblk1 V c 2 t (ix3 u k h) = V c main_v3 (ix3 (bOf t) k h) := by
  obtain ⟨e0, e1, e2⟩ := (idxIn t).2.2.1
  have hu : u.val = 0 := by have := u.isLt; omega
  show V c main_v3 (((cfg1.win 2).blk t).view.emb (ix3 u k h)) = _
  refine congrArg (V c main_v3) (funext fun a => Fin.ext ?_)
  match a with
  | ⟨0, _⟩ => show win1_2.index t (0 : Fin 3) * 1 + 1 * u.val = t.val / 4; omega
  | ⟨1, _⟩ => show win1_2.index t (1 : Fin 3) * 1 + 1 * k.val = k.val; omega
  | ⟨2, _⟩ => show win1_2.index t (2 : Fin 3) * 1024 + 1 * h.val = h.val; omega

theorem blk3_apply (c : Dev nD) (t : Fin cfg1.N) (u : Fin 1) (k : Fin 1024) (h : Fin 1) :
    iblk1 V c 3 t (ix3 u k h) = V c main_v4 (ix3 (bOf t) k h) := by
  obtain ⟨e0, e1, e2⟩ := (idxIn t).2.2.2.1
  have hu : u.val = 0 := by have := u.isLt; omega
  show V c main_v4 (((cfg1.win 3).blk t).view.emb (ix3 u k h)) = _
  refine congrArg (V c main_v4) (funext fun a => Fin.ext ?_)
  match a with
  | ⟨0, _⟩ => show win1_3.index t (0 : Fin 3) * 1 + 1 * u.val = t.val / 4; omega
  | ⟨1, _⟩ => show win1_3.index t (1 : Fin 3) * 1024 + 1 * k.val = k.val; omega
  | ⟨2, _⟩ => show win1_3.index t (2 : Fin 3) * 1 + 1 * h.val = h.val; omega

theorem blk4_apply (c : Dev nD) (t : Fin cfg1.N) (u : Fin 1) (k : Fin 1) (h : Fin 1024) :
    iblk1 V c 4 t (ix3 u k h) = V c main_v5 (ix3 (bOf t) k h) := by
  obtain ⟨e0, e1, e2⟩ := (idxIn t).2.2.2.2
  have hu : u.val = 0 := by have := u.isLt; omega
  show V c main_v5 (((cfg1.win 4).blk t).view.emb (ix3 u k h)) = _
  refine congrArg (V c main_v5) (funext fun a => Fin.ext ?_)
  match a with
  | ⟨0, _⟩ => show win1_4.index t (0 : Fin 3) * 1 + 1 * u.val = t.val / 4; omega
  | ⟨1, _⟩ => show win1_4.index t (1 : Fin 3) * 1 + 1 * k.val = k.val; omega
  | ⟨2, _⟩ => show win1_4.index t (2 : Fin 3) * 1024 + 1 * h.val = h.val; omega

/-! ## One pair's term from the region's arrays -/

/-- Cosine distance less relative distance of rows i and j of batch entry b. -/
def Dk (c : Dev nD) (b : Fin 32) (i j : Fin 1024) : EReal :=
  dForm (fun h => V c main_v0 (ix3 b i h)) (fun h => V c main_v0 (ix3 b j h))
    (FloatOps.sitofp (F := Ideal) .f32 (V c main_v2 (ix3 b i (0 : Fin 1))))
    (FloatOps.sitofp (F := Ideal) .f32 (V c main_v3 (ix3 b (0 : Fin 1) j)))

/-- The weight of (i, j) in batch entry b. -/
def Wk (c : Dev nD) (b : Fin 32) (i j : Fin 1024) : EReal :=
  (FloatOps.sitofp (F := Ideal) .f32 (V c main_v4 (ix3 b i (0 : Fin 1))) * FloatOps.sitofp (F := Ideal) .f32 (V c main_v5 (ix3 b (0 : Fin 1) j)))
    * (if i.val < j.val then (1 : EReal) else 0)

/-- One pair's term of the numerator. -/
def Tk (c : Dev nD) (b : Fin 32) (i j : Fin 1024) : EReal := (Dk V c b i j * Dk V c b i j) * Wk V c b i j

theorem Tk_congr (c : Dev nD) (b b' : Fin 32) (i i' : Fin 1024) (hb : b = b') (hi : i = i') (j : Fin 1024) :
    Tk V c b i j = Tk V c b' i' j := by subst hb; subst hi; rfl
theorem Wk_congr (c : Dev nD) (b b' : Fin 32) (i i' : Fin 1024) (hb : b = b') (hi : i = i') (j : Fin 1024) :
    Wk V c b i j = Wk V c b' i' j := by subst hb; subst hi; rfl

theorem tile_lt (n : Fin cfg1.N) : n.val % 4 < 4 := Nat.mod_lt _ (by decide)

theorem dBlk_arr (c : Dev nD) (n : Fin cfg1.N) (r : Fin 256) (j : Fin 1024) :
    dBlk (grid1.coords n) (iblk1 V c 0 n) (iblk1 V c 1 n) (iblk1 V c 2 n) r j
      = Dk V c (bOf n) (tileRow (n.val % 4) (tile_lt n) r) j := by
  refine (dBlk_eq_dForm (grid1.coords n) (iblk1 V c 0 n) (iblk1 V c 1 n) (iblk1 V c 2 n) r j).trans ?_
  unfold Dk
  refine dForm_congr ?_ ?_ ?_ ?_
  · funext h
    exact (ld_R1 (grid1.coords n) (iblk1 V c 0 n) r h (n.val % 4) (tile_lt n) (coords1 n)).trans
      (blk0_apply V c n (0 : Fin 1) (tileRow (n.val % 4) (tile_lt n) r) h)
  · funext h
    exact blk0_apply V c n (0 : Fin 1) j h
  · exact congrArg (FloatOps.sitofp (F := Ideal) .f32)
      ((ld_R2 (grid1.coords n) (iblk1 V c 1 n) r (n.val % 4) (tile_lt n) (coords1 n)).trans
        (blk1_apply V c n (0 : Fin 1) (tileRow (n.val % 4) (tile_lt n) r) (0 : Fin 1)))
  · exact congrArg (FloatOps.sitofp (F := Ideal) .f32) (blk2_apply V c n (0 : Fin 1) (0 : Fin 1) j)

theorem wBlk_arr (c : Dev nD) (n : Fin cfg1.N) (r : Fin 256) (j : Fin 1024) :
    wBlk (grid1.coords n) (iblk1 V c 3 n) (iblk1 V c 4 n) r j = Wk V c (bOf n) (tileRow (n.val % 4) (tile_lt n) r) j := by
  unfold wBlk Wk
  refine congrArg₂ (· * ·) (congrArg₂ (· * ·) ?_ ?_) ?_
  · exact congrArg (FloatOps.sitofp (F := Ideal) .f32)
      ((ld_R2 (grid1.coords n) (iblk1 V c 3 n) r (n.val % 4) (tile_lt n) (coords1 n)).trans
        (blk3_apply V c n (0 : Fin 1) (tileRow (n.val % 4) (tile_lt n) r) (0 : Fin 1)))
  · exact congrArg (FloatOps.sitofp (F := Ideal) .f32) (blk4_apply V c n (0 : Fin 1) (0 : Fin 1) j)
  · rw [coords1 n]
    exact Cert.PairLoss.K1w.kcmp (n.val % 4) r.val j.val (tile_lt n) r.isLt j.isLt

/-- Point n's contribution to lane 0, from the arrays. -/
theorem C0_arr (c : Dev nD) (n : ℕ) (hn : n < cfg1.N) :
    C0 V c n = ∑ r : Fin 256, ∑ j : Fin 1024, Tk V c (bOf ⟨n, hn⟩) (tileRow (n % 4) (Nat.mod_lt _ (by decide)) r) j := by
  unfold C0
  rw [dif_pos hn]
  unfold contrib0
  refine Finset.sum_congr rfl fun r _ => Finset.sum_congr rfl fun j _ => ?_
  unfold Tk
  rw [dBlk_arr V c ⟨n, hn⟩ r j, wBlk_arr V c ⟨n, hn⟩ r j]

/-- Point n's contribution to lane 1, from the arrays. -/
theorem C1_arr (c : Dev nD) (n : ℕ) (hn : n < cfg1.N) :
    C1 V c n = ∑ r : Fin 256, ∑ j : Fin 1024, Wk V c (bOf ⟨n, hn⟩) (tileRow (n % 4) (Nat.mod_lt _ (by decide)) r) j := by
  unfold C1
  rw [dif_pos hn]
  unfold contrib1
  exact Finset.sum_congr rfl fun r _ => Finset.sum_congr rfl fun j _ => wBlk_arr V c ⟨n, hn⟩ r j

theorem pt_lt (b : Fin 32) (t : Fin 4) : 4 * b.val + t.val < cfg1.N :=
  lt_of_lt_of_eq (by have := b.isLt; have := t.isLt; omega : 4 * b.val + t.val < 128) N_1.symm

/-- The output array at (b, 0, 0): the sum over all pairs of batch entry b. -/
theorem lane0_sum (c : Dev nD) (b : Fin 32) :
    (dat1 V c).arrAt 5 cfg1.N (ix3 b (0 : Fin 1) (0 : Fin 128)) = ∑ i : Fin 1024, ∑ j : Fin 1024, Tk V c b i j := by
  rw [arr5_lane0, Accum.run_last, show zeroW = 0 from Ideal.ofBits_zero_f32]
  refine Accum.four_tiles (fun i => ∑ j : Fin 1024, Tk V c b i j) (C0 V c) b.val fun t => ?_
  have hb := b.isLt
  have ht := t.isLt
  rw [C0_arr V c _ (pt_lt b t)]
  refine Finset.sum_congr rfl fun r _ => Finset.sum_congr rfl fun j _ => ?_
  refine Tk_congr V c _ _ _ _ (Fin.ext ?_) (Fin.ext ?_) j
  · show (4 * b.val + t.val) / 4 = b.val
    omega
  · show 256 * ((4 * b.val + t.val) % 4) + r.val = 256 * t.val + r.val
    omega

/-- The output array at (b, 0, 1): the sum of all weights of batch entry b. -/
theorem lane1_sum (c : Dev nD) (b : Fin 32) :
    (dat1 V c).arrAt 5 cfg1.N (ix3 b (0 : Fin 1) (1 : Fin 128)) = ∑ i : Fin 1024, ∑ j : Fin 1024, Wk V c b i j := by
  rw [arr5_lane1, Accum.run_last, show zeroW = 0 from Ideal.ofBits_zero_f32]
  refine Accum.four_tiles (fun i => ∑ j : Fin 1024, Wk V c b i j) (C1 V c) b.val fun t => ?_
  have hb := b.isLt
  have ht := t.isLt
  rw [C1_arr V c _ (pt_lt b t)]
  refine Finset.sum_congr rfl fun r _ => Finset.sum_congr rfl fun j _ => ?_
  refine Wk_congr V c _ _ _ _ (Fin.ext ?_) (Fin.ext ?_) j
  · show (4 * b.val + t.val) / 4 = b.val
    omega
  · show 256 * ((4 * b.val + t.val) % 4) + r.val = 256 * t.val + r.val
    omega

end Region

end Cert.PairLoss.K1

end
-- ==== Proof.Region0.lean ====
/-
  The first region: every row of the embeddings divided by its clamped Euclidean norm.

  The region runs over a 32 x 4 grid; point `t` reads the block of 256 rows `256 (t % 4) ..` of batch entry `t / 4`
  (all 768 columns), and writes the block at the same place of the output array. The body squares the entries, sums
  each row, takes the square root, clamps it below by a small constant and divides the row by it. A row lies wholly
  inside one block, so the block a point writes back is the block of the array `xn` of the specification, and since
  the blocks of the 128 points cover the output, the output ends as `xn`.
-/
import proofs.«115061_j53025666237022_1_alg».proof.Proof.Gen.KernelIdeal.Frame
import proofs.«115061_j53025666237022_1_alg».proof.Proof.Spec
import proofs.«115061_j53025666237022_1_alg».proof.Proof.LibLayout
import proofs.«115061_j53025666237022_1_alg».proof.Proof.LibRows
import Idealize.ShloMosaic.Lib.ValueLayout
import Idealize.ShloMosaic.Lib.Pipeline.Value
import Idealize.ShloMosaic.PureOps.Ideal.Laws

noncomputable section

namespace Cert.PairLoss.K0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The normalizing body at an entry of its block

The body reads a block of 256 rows of 768 entries, squares the entries, sums each row, takes the square root,
clamps it below by the small constant, and divides every entry of the row by the result; the change of float
format before the store is the identity over the extended reals. -/

/-- The value stored at entry `(0, r, h)` of the block: the loaded entry divided by the clamped norm of its row. -/
theorem pay_apply (x0 : Vec Ideal S1x256x768 .f32) (r : Fin 256) (h : Fin 768) :
    k0_pay1 x0 (ix3 (0 : Fin 1) r h)
      = Ideal.div (x0 (ix3 (0 : Fin 1) r h))
          (max (Ideal.sqrt (∑ k : Fin 768, x0 (ix3 (0 : Fin 1) r k) * x0 (ix3 (0 : Fin 1) r k)))
            (Ideal.ofBits .f32 0x322BCC77#32)) := by
  unfold k0_pay1
  refine (shapeCast_ab_1ab_apply _ _ (0 : Fin 1) r h).trans ?_
  refine congrArg₂ Ideal.div (shapeCast_1ab_ab_apply x0 _ r h) ?_
  refine (broadcastTo_a1_ab_apply _ _ r h).trans ?_
  refine congrArg₂ max ?_ rfl
  refine congrArg Ideal.sqrt ?_
  refine (shapeCast_a_a1_apply _ _ r (0 : Fin 1)).trans ?_
  refine (rowSum_apply _ _ _ _ _ r).trans ?_
  refine Finset.sum_congr rfl fun k _ => ?_
  exact congrArg₂ (· * ·) (shapeCast_1ab_ab_apply x0 _ r k) (shapeCast_1ab_ab_apply x0 _ r k)

/-- The same at any index `j` of the block: the leading coordinate of `j` can only be zero. -/
theorem pay_at (x0 : Vec Ideal S1x256x768 .f32) (j : S1x256x768.Idx) :
    k0_pay1 x0 j
      = Ideal.div (x0 j)
          (max (Ideal.sqrt (∑ k : Fin 768, x0 (ix3 (0 : Fin 1) (j 1) k) * x0 (ix3 (0 : Fin 1) (j 1) k)))
            (Ideal.ofBits .f32 0x322BCC77#32)) := by
  have hj : j = ix3 (0 : Fin 1) (j 1) (j 2) := by
    funext a
    refine Fin.ext ?_
    match a with
    | ⟨0, _⟩ => show (j 0).val = 0; have hlt : (j 0).val < 1 := (j 0).isLt; omega
    | ⟨1, _⟩ => rfl
    | ⟨2, _⟩ => rfl
  exact (congrArg (k0_pay1 x0) hj).trans
    ((pay_apply x0 (j 1) (j 2)).trans (congrArg₂ Ideal.div (congrArg x0 hj.symm) rfl))

/-! ## From the blocks to the array

Point `t` of the 32 x 4 grid works on batch entry `t / 4` and on the rows `256 (t % 4) .. 256 (t % 4) + 255`; the
input block and the output block of a point sit at the same place of their arrays, and all 768 columns belong to
the block. A row's norm only needs its own row, which lies wholly inside the block, so what a point writes back is
the block of the normalized array. -/

variable (m : (ℓ : Loc nD τ sig) → Buf (Elt Ideal) ℓ) (ρ : Dev nD → PrngReg) (c : Dev nD)

theorem zero3 : (![0, 0, 0] : Fin 3 → Nat) = fun _ => 0 := funext fun a => by fin_cases a <;> rfl

/-- The index maps over the grid: the two windows move together; the block index is `(t / 4, t % 4, 0)`. -/
theorem idx_facts : ∀ t : Fin cfg0.N,
    win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (0 : Fin 3) = t.val / 4
    ∧ win0_1.index t (1 : Fin 3) = t.val % 4
    ∧ win0_1.index t (2 : Fin 3) = 0 :=
  (by decide +kernel : ∀ t : Fin grid0.N, _)

/-- The array index of entry `j` of point `t`'s input block, -/
abbrev inIdx (t : Fin cfg0.N) (j : S1x256x768.Idx) : S32x1024x768.Idx := ((cfg0.win 0).blk t).view.emb j
/-- and of its output block. -/
abbrev outIdx (t : Fin cfg0.N) (j : S1x256x768.Idx) : S32x1024x768.Idx := ((cfg0.win 1).blk t).view.emb j

/-- Entry `j` of the input block and entry `j` of the output block sit at the same array index. -/
theorem inIdx_eq (t : Fin cfg0.N) (j : S1x256x768.Idx) : inIdx t j = outIdx t j := by
  obtain ⟨e0, e1, e2, e3, e4, e5⟩ := idx_facts t
  funext a
  apply Fin.ext
  match a with
  | ⟨0, _⟩ =>
    show win0_0.index t (0 : Fin 3) * 1 + 1 * (j 0).val = win0_1.index t (0 : Fin 3) * 1 + 1 * (j 0).val
    omega
  | ⟨1, _⟩ =>
    show win0_0.index t (1 : Fin 3) * 256 + 1 * (j 1).val = win0_1.index t (1 : Fin 3) * 256 + 1 * (j 1).val
    omega
  | ⟨2, _⟩ =>
    show win0_0.index t (2 : Fin 3) * 768 + 1 * (j 2).val = win0_1.index t (2 : Fin 3) * 768 + 1 * (j 2).val
    omega

/-- Column `k` of the row of `j` in the input block sits in the array at the batch entry and row of `j`, column `k`. -/
theorem inIdx_row (t : Fin cfg0.N) (j : S1x256x768.Idx) (k : Fin 768) :
    inIdx t (ix3 (0 : Fin 1) (j 1) k) = ix3 (outIdx t j 0) (outIdx t j 1) k := by
  obtain ⟨e0, e1, e2, e3, e4, e5⟩ := idx_facts t
  funext a
  apply Fin.ext
  match a with
  | ⟨0, _⟩ =>
    show win0_0.index t (0 : Fin 3) * 1 + 1 * 0 = win0_1.index t (0 : Fin 3) * 1 + 1 * (j 0).val
    have hlt : (j 0).val < 1 := (j 0).isLt
    omega
  | ⟨1, _⟩ =>
    show win0_0.index t (1 : Fin 3) * 256 + 1 * (j 1).val = win0_1.index t (1 : Fin 3) * 256 + 1 * (j 1).val
    omega
  | ⟨2, _⟩ =>
    show win0_0.index t (2 : Fin 3) * 768 + 1 * k.val = k.val
    omega

/-- The embeddings as launched, an array of extended reals. -/
abbrev X0 : S32x1024x768.Idx → EReal := m ((c : Thread nD τ).loc main_arg0)

/-- What point `t` writes back is its block of the normalized array. -/
theorem flushed_eq (t : Fin cfg0.N) :
    (dat0 (F := Ideal) (V0 m ρ) c).flushed 1 t
      = ((cfg0.win 1).blk t).view.read (Elt Ideal)
          (fun i => Cert.PairLoss.xn (m ((c : Thread nD τ).loc main_arg0)) (i 0) (i 1) (i 2)) := by
  show (cfg0.win 1).cut (grid0.coords t) ((dat0 (V0 m ρ) c).after 1 t) = _
  rw [after0_1]
  unfold out0_1
  rw [View.canon_unit_zero zero3]
  simp only [View.ld_unit_zero (S := S1x256x768) zero3]
  funext j
  show k0_pay1 (iblk0 (V0 m ρ) c 0 t) j
    = Cert.PairLoss.xn (m ((c : Thread nD τ).loc main_arg0)) (outIdx t j 0) (outIdx t j 1) (outIdx t j 2)
  refine (pay_at _ j).trans ?_
  show Ideal.div (X0 m c (inIdx t j))
      (max (Ideal.sqrt (∑ k : Fin 768,
          X0 m c (inIdx t (ix3 (0 : Fin 1) (j 1) k)) * X0 m c (inIdx t (ix3 (0 : Fin 1) (j 1) k))))
        (Ideal.ofBits .f32 0x322BCC77#32)) = _
  unfold Cert.PairLoss.xn Cert.PairLoss.nrm Cert.PairLoss.epsNorm
  refine congrArg₂ Ideal.div ?_ (congrArg₂ max (congrArg Ideal.sqrt (Finset.sum_congr rfl fun k _ => ?_)) rfl)
  · exact (congrArg (m ((c : Thread nD τ).loc main_arg0)) (inIdx_eq t j)).trans
      (congrArg (m ((c : Thread nD τ).loc main_arg0)) (eq_ix3 (outIdx t j)))
  · exact congrArg₂ (· * ·) (congrArg (m ((c : Thread nD τ).loc main_arg0)) (inIdx_row t j k))
      (congrArg (m ((c : Thread nD τ).loc main_arg0)) (inIdx_row t j k))

/-- An index of the array is in point `t`'s block iff each coordinate is in the block's range on its axis. -/
theorem mem_blk (t : Fin cfg0.N) (i : S32x1024x768.Idx) :
    i ∈ ((cfg0.win 1).blk t).view.set
      ↔ ∀ a : Fin 3, win0_1.index t a * S1x256x768.size a ≤ (i a).val
          ∧ (i a).val < win0_1.index t a * S1x256x768.size a + S1x256x768.size a := by
  show i ∈ ((View.whole main_v0).slice (win0_1.rect t)).set ↔ _
  rw [View.set_slice_whole, Rect.mem_set_unit]
  exact Iff.rfl

/-- Every index of the array is in the block of the point `4 b + i / 256`, `b` its batch entry and `i` its row;
    every point writes its block back. -/
theorem cover (i : S32x1024x768.Idx) :
    ∃ t : Fin cfg0.N, (cfg0.win 1).flush t = true ∧ i ∈ ((cfg0.win 1).blk t).view.set := by
  have h0 : (i 0).val < 32 := (i 0).isLt
  have h1 : (i 1).val < 1024 := (i 1).isLt
  have h2 : (i 2).val < 768 := (i 2).isLt
  have hN : cfg0.N = 128 := N_0
  obtain ⟨t, ht⟩ : ∃ t : Fin cfg0.N, t.val = (i 0).val * 4 + (i 1).val / 256 :=
    ⟨⟨(i 0).val * 4 + (i 1).val / 256, by rw [hN]; omega⟩, rfl⟩
  obtain ⟨e0, e1, e2, e3, e4, e5⟩ := idx_facts t
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 256 ≤ (i 1).val ∧ (i 1).val < win0_1.index t (1 : Fin 3) * 256 + 256
    omega
  | ⟨2, _⟩ =>
    show win0_1.index t (2 : Fin 3) * 768 ≤ (i 2).val ∧ (i 2).val < win0_1.index t (2 : Fin 3) * 768 + 768
    omega

/-- THE NORMALIZED ARRAY: after the first region its output holds, at `(b, i, h)`, entry `h` of row `(b, i)` of the
    embeddings divided by the row's clamped norm. -/
theorem region0_array :
    (dat0 (F := Ideal) (V0 m ρ) c).arrAt 1 cfg0.N
      = fun i => Cert.PairLoss.xn (m ((c : Thread nD τ).loc main_arg0)) (i 0) (i 1) (i 2) :=
  (dat0 (F := Ideal) (V0 m ρ) c).arrAt_eq_of_cover 1 _ (fun t _ => flushed_eq m ρ c t) cover

end Cert.PairLoss.K0

end
-- ==== Proof.HostMid.lean ====
/-
  Between the two regions: what the second region finds in the buffers it windows.

  The normalized embeddings are what the first region left (no host operation writes them); the labels and the mask
  widened to 32-bit words are laid out as a column `[32, 1024, 1]` and as a row `[32, 1, 1024]`, each a plain copy of
  the argument's entry at the batch entry and position the index names.
-/
import proofs.«115061_j53025666237022_1_alg».proof.Proof.Gen.KernelIdeal.Frame
import proofs.«115061_j53025666237022_1_alg».proof.Proof.Spec
import proofs.«115061_j53025666237022_1_alg».proof.Proof.Region0
import proofs.«115061_j53025666237022_1_alg».proof.Proof.LibLayout
import proofs.«115061_j53025666237022_1_alg».proof.Proof.LibRows
import Idealize.ShloMosaic.Lib.ValueLayout
import Idealize.ShloMosaic.Lib.Pipeline.Value
import Idealize.ShloMosaic.PureOps.Ideal.Laws

noncomputable section

namespace Cert.PairLoss.K0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (m : (ℓ : Loc nD τ sig) → Buf (Elt Ideal) ℓ) (ρ : Dev nD → PrngReg) (c : Dev nD)

/-! ## The host operations between the two regions

The five operations widen the mask bits to 32-bit words and lay the labels and the widened mask out as a column
`[32, 1024, 1]` and as a row `[32, 1, 1024]`: each result, read at an index, is the argument at the batch entry and
the position the index names. None of them writes the normalized array or an argument. -/

/-- The labels when the second region is entered: as launched (the first region does not window them). -/
theorem W1_arg1 : W1 m ρ c (Proc.devRef .tc main_arg1) = m ((c : Thread nD τ).loc main_arg1) :=
  W1_of_ne m ρ c main_arg1 (by decide)

/-- The mask likewise. -/
theorem W1_arg2 : W1 m ρ c (Proc.devRef .tc main_arg2) = m ((c : Thread nD τ).loc main_arg2) :=
  W1_of_ne m ρ c main_arg2 (by decide)

/-- The four layouts as terms over the launch arrays. -/
theorem V2_v2_eq : (V2 m ρ c main_v2 : S32x1024x1.Idx → BitVec 32)
    = broadcastInDim S32x1024x1 ![0, 1] bcast_S32x1024_S32x1024x1_0_1 (W1 m ρ c (Proc.devRef .tc main_arg1)) := by
  show StableHlo.after hostOps1 (W1 m ρ c) (Proc.devRef .tc main_v2) = _
  after_results

theorem V2_v3_eq : (V2 m ρ c main_v3 : S32x1x1024.Idx → BitVec 32)
    = broadcastInDim S32x1x1024 ![0, 2] bcast_S32x1024_S32x1x1024_0_2 (W1 m ρ c (Proc.devRef .tc main_arg1)) := by
  show StableHlo.after hostOps1 (W1 m ρ c) (Proc.devRef .tc main_v3) = _
  after_results

theorem V2_v4_eq : (V2 m ρ c main_v4 : S32x1024x1.Idx → BitVec 32)
    = broadcastInDim S32x1024x1 ![0, 1] bcast_S32x1024_S32x1024x1_0_1
        (extui 32 (W1 m ρ c (Proc.devRef .tc main_arg2)) natLt_1_32) := by
  show StableHlo.after hostOps1 (W1 m ρ c) (Proc.devRef .tc main_v4) = _
  after_results

theorem V2_v5_eq : (V2 m ρ c main_v5 : S32x1x1024.Idx → BitVec 32)
    = broadcastInDim S32x1x1024 ![0, 2] bcast_S32x1024_S32x1x1024_0_2
        (extui 32 (W1 m ρ c (Proc.devRef .tc main_arg2)) natLt_1_32) := by
  show StableHlo.after hostOps1 (W1 m ρ c) (Proc.devRef .tc main_v5) = _
  after_results

/-- A `[32, 1024]` array laid out as a column reads, at `(b, i, 0)`, its entry `(b, i)`. -/
theorem column_apply {α : Type} (x : S32x1024.Idx → α) (b : Fin 32) (i : Fin 1024) :
    broadcastInDim S32x1024x1 ![0, 1] bcast_S32x1024_S32x1024x1_0_1 x (ix3 b i (0 : Fin 1)) = x (ix2 b i) :=
  broadcastInDim_apply _ bcast_S32x1024_S32x1024x1_0_1 x (ix3 b i (0 : Fin 1)) (ix2 b i) (fun a => match a with
    | ⟨0, _⟩ => by show b.val = if (32 : Nat) = 1 then 0 else b.val; rw [if_neg (by decide)]
    | ⟨1, _⟩ => by show i.val = if (1024 : Nat) = 1 then 0 else i.val; rw [if_neg (by decide)])

/-- Laid out as a row it reads, at `(b, 0, j)`, its entry `(b, j)`. -/
theorem row_apply {α : Type} (x : S32x1024.Idx → α) (b : Fin 32) (j : Fin 1024) :
    broadcastInDim S32x1x1024 ![0, 2] bcast_S32x1024_S32x1x1024_0_2 x (ix3 b (0 : Fin 1) j) = x (ix2 b j) :=
  broadcastInDim_apply _ bcast_S32x1024_S32x1x1024_0_2 x (ix3 b (0 : Fin 1) j) (ix2 b j) (fun a => match a with
    | ⟨0, _⟩ => by show b.val = if (32 : Nat) = 1 then 0 else b.val; rw [if_neg (by decide)]
    | ⟨1, _⟩ => by show j.val = if (1024 : Nat) = 1 then 0 else j.val; rw [if_neg (by decide)])

/-- The labels as a column. -/
theorem V2_v2 (b : Fin 32) (i : Fin 1024) :
    V2 m ρ c main_v2 (ix3 b i (0 : Fin 1)) = m ((c : Thread nD τ).loc main_arg1) (ix2 b i) :=
  (congrFun (V2_v2_eq m ρ c) (ix3 b i (0 : Fin 1))).trans
    ((column_apply _ b i).trans (congrFun (W1_arg1 m ρ c) (ix2 b i)))

/-- The labels as a row. -/
theorem V2_v3 (b : Fin 32) (j : Fin 1024) :
    V2 m ρ c main_v3 (ix3 b (0 : Fin 1) j) = m ((c : Thread nD τ).loc main_arg1) (ix2 b j) :=
  (congrFun (V2_v3_eq m ρ c) (ix3 b (0 : Fin 1) j)).trans
    ((row_apply _ b j).trans (congrFun (W1_arg1 m ρ c) (ix2 b j)))

/-- The widened mask as a column. -/
theorem V2_v4 (b : Fin 32) (i : Fin 1024) :
    V2 m ρ c main_v4 (ix3 b i (0 : Fin 1)) = (m ((c : Thread nD τ).loc main_arg2) (ix2 b i)).setWidth 32 :=
  (congrFun (V2_v4_eq m ρ c) (ix3 b i (0 : Fin 1))).trans
    ((column_apply _ b i).trans
      ((extui_apply _ natLt_1_32 (ix2 b i)).trans
        (congrArg (fun x : BitVec 1 => x.setWidth 32) (congrFun (W1_arg2 m ρ c) (ix2 b i)))))

/-- The widened mask as a row. -/
theorem V2_v5 (b : Fin 32) (j : Fin 1024) :
    V2 m ρ c main_v5 (ix3 b (0 : Fin 1) j) = (m ((c : Thread nD τ).loc main_arg2) (ix2 b j)).setWidth 32 :=
  (congrFun (V2_v5_eq m ρ c) (ix3 b (0 : Fin 1) j)).trans
    ((row_apply _ b j).trans
      ((extui_apply _ natLt_1_32 (ix2 b j)).trans
        (congrArg (fun x : BitVec 1 => x.setWidth 32) (congrFun (W1_arg2 m ρ c) (ix2 b j)))))

/-- The normalized embeddings when the second region is entered: the first region's output array, which none of the
    five host operations writes. -/
theorem V2_v0 : (V2 m ρ c main_v0 : S32x1024x768.Idx → EReal)
    = fun i => Cert.PairLoss.xn (m ((c : Thread nD τ).loc main_arg0)) (i 0) (i 1) (i 2) := by
  have h1 : W2 m ρ c (Proc.devRef .tc main_v0) = W1 m ρ c (Proc.devRef .tc main_v0) :=
    StableHlo.after_of_forall_not_mem (b := Proc.devRef .tc main_v0) _ _ (List.forall_iff_forall_mem.mp (by
      simp only [hostOps1, List.Forall, StableHlo.unary_writes, Finset.mem_singleton]
      repeat' apply And.intro
      all_goals exact StableHlo.devRef_ne_of_ne (by decide)))
  exact h1.trans ((W1_arr m ρ c 1).trans (region0_array m ρ c))

end Cert.PairLoss.K0

end
-- ==== Proof.KernelValue.lean ====
/-
  The kernel's numerators and weight sums are the specification's.

  The second region finds, as its arrays, the first region's output — the normalized rows — and the labels and mask
  words laid out as columns and rows.  With these, a pair's cosine distance, relative distance and weight are the
  specification's, so the region's output array holds the specification's numerator in lane 0 and its sum of weights
  in lane 1 of every batch entry.
-/
import proofs.«115061_j53025666237022_1_alg».proof.Proof.Region1Arr
import proofs.«115061_j53025666237022_1_alg».proof.Proof.HostMid

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.PairLoss.K

open Cert.KernelIdeal Cert.KernelIdeal.Gen Cert.PairLoss Cert.PairLoss.K1

variable (m : (ℓ : Loc nD τ sig) → Buf (Elt Ideal) ℓ) (ρ : Dev nD → PrngReg) (c : Dev nD)

/-- The normalized rows, as the second region finds them. -/
theorem a0_at (b : Fin 32) (i : Fin 1024) (h : Fin 768) :
    V2 m ρ c main_v0 (ix3 b i h) = xn (m ((c : Thread nD τ).loc main_arg0)) b i h :=
  congrFun (Cert.PairLoss.K0.V2_v0 m ρ c) (ix3 b i h)

/-- Cosine distance less relative distance of a pair is the specification's. -/
theorem Dk_eq (b : Fin 32) (i j : Fin 1024) :
    Dk (V2 m ρ) c b i j
      = (oneW - cosv (m ((c : Thread nD τ).loc main_arg0)) b i j) - vd (m ((c : Thread nD τ).loc main_arg1)) b i j := by
  unfold Dk
  rw [show (fun h => V2 m ρ c main_v0 (ix3 b i h)) = fun h => xn (m ((c : Thread nD τ).loc main_arg0)) b i h from funext fun h => a0_at m ρ c b i h,
    show (fun h => V2 m ρ c main_v0 (ix3 b j h)) = fun h => xn (m ((c : Thread nD τ).loc main_arg0)) b j h from funext fun h => a0_at m ρ c b j h,
    Cert.PairLoss.K0.V2_v2 m ρ c b i, Cert.PairLoss.K0.V2_v3 m ρ c b j]
  rfl

/-- The weight of a pair is the specification's. -/
theorem Wk_eq (b : Fin 32) (i j : Fin 1024) :
    Wk (V2 m ρ) c b i j = mk (m ((c : Thread nD τ).loc main_arg2)) b i j := by
  unfold Wk
  rw [Cert.PairLoss.K0.V2_v4 m ρ c b i, Cert.PairLoss.K0.V2_v5 m ρ c b j]
  exact Cert.PairLoss.K1w.kbits _ _ (i.val < j.val)

/-- Lane 0 of the second region's output array is the numerator. -/
theorem kernel_num (b : Fin 32) :
    ((dat1 (F := Ideal) (V2 m ρ) c).arrAt 5 cfg1.N (ix3 b (0 : Fin 1) (0 : Fin 128)) : EReal)
      = num (m ((c : Thread nD τ).loc main_arg0)) (m ((c : Thread nD τ).loc main_arg1)) (m ((c : Thread nD τ).loc main_arg2)) b := by
  have h : (∑ i : Fin 1024, ∑ j : Fin 1024, Tk (V2 m ρ) c b i j : EReal)
      = num (m ((c : Thread nD τ).loc main_arg0)) (m ((c : Thread nD τ).loc main_arg1)) (m ((c : Thread nD τ).loc main_arg2)) b := by
    unfold num
    refine Finset.sum_congr rfl fun i _ => Finset.sum_congr rfl fun j _ => ?_
    unfold Tk term sqv
    rw [Dk_eq m ρ c b i j, Wk_eq m ρ c b i j]
  exact (lane0_sum (V2 m ρ) c b).trans h

/-- Lane 1 of the second region's output array is the sum of the weights. -/
theorem kernel_den (b : Fin 32) :
    ((dat1 (F := Ideal) (V2 m ρ) c).arrAt 5 cfg1.N (ix3 b (0 : Fin 1) (1 : Fin 128)) : EReal)
      = den (m ((c : Thread nD τ).loc main_arg2)) b := by
  have h : (∑ i : Fin 1024, ∑ j : Fin 1024, Wk (V2 m ρ) c b i j : EReal) = den (m ((c : Thread nD τ).loc main_arg2)) b := by
    unfold den
    exact Finset.sum_congr rfl fun i _ => Finset.sum_congr rfl fun j _ => Wk_eq m ρ c b i j
  exact (lane1_sum (V2 m ρ) c b).trans h

end Cert.PairLoss.K

end
-- ==== Proof.HostTail.lean ====
/-
  The idealized kernel's closing host operations are the spec's closing operations.

  After the second region the program slices the columns 0 and 1 of the region's [32, 1, 128] output, reshapes each
  to a vector over the batch, and applies to the two vectors the operations the spec calls `tail`.  A slice of width
  one reshaped to a vector reads the array at (b, 0, column); the rest is the spec's term verbatim.
-/
import proofs.«115061_j53025666237022_1_alg».proof.Proof.Gen.KernelIdeal.Frame
import proofs.«115061_j53025666237022_1_alg».proof.Proof.Spec
import Idealize.ShloMosaic.Lib.StableHlo.Run
import Idealize.ShloMosaic.Lib.Pipeline.Value
import Idealize.ShloMosaic.Lib.ValueIdx

set_option maxRecDepth 16384

noncomputable section

namespace Cert.PairLoss.K2

open Cert.KernelIdeal Cert.KernelIdeal.Gen
open Idealize.ShloMosaic Idealize.ShloMosaic.TcCoe Idealize.ShloMosaic.ValueIdx
open Idealize.SL.Sem Idealize.ShloMosaic.StableHlo

/-! ## A column of width one, reshaped to a vector -/

/-- Column 0 of a [32, 1, 128] array, sliced and reshaped to [32], reads the array at (b, 0, 0). -/
theorem col0 (A : S32x1x128.Idx → EReal) :
    shapeCast S32 (extractStridedSlice S32x1x1 ![0, 0, 0] A slices_S32x1x128_S32x1x1_0_0_0) shapeCasts_S32x1x1_S32
      = fun q => A (ix3 (q 0) (0 : Fin 1) (0 : Fin 128)) := by
  funext q
  obtain ⟨p, rfl⟩ : ∃ p : Fin 32, q = ix1 p := ⟨q 0, eq_ix1 q⟩
  refine (shapeCast_apply _ shapeCasts_S32x1x1_S32 (ix1 p) (ix3 p (0 : Fin 1) (0 : Fin 1)) ?_).trans ?_
  · rw [Shape.rowMajor_val_three, Shape.rowMajor_val_one]
    show (p.val * 1 + 0) * 1 + 0 = p.val
    omega
  · exact extractStridedSlice_apply ![0, 0, 0] A slices_S32x1x128_S32x1x1_0_0_0 (ix3 p (0 : Fin 1) (0 : Fin 1))
      (ix3 p (0 : Fin 1) (0 : Fin 128)) (fun a => match a with
        | ⟨0, _⟩ => by show p.val = 0 + p.val; omega
        | ⟨1, _⟩ => by show 0 = 0 + 0; rfl
        | ⟨2, _⟩ => by show 0 = 0 + 0; rfl)

/-- Column 1 likewise reads the array at (b, 0, 1). -/
theorem col1 (A : S32x1x128.Idx → EReal) :
    shapeCast S32 (extractStridedSlice S32x1x1 ![0, 0, 1] A slices_S32x1x128_S32x1x1_0_0_1) shapeCasts_S32x1x1_S32
      = fun q => A (ix3 (q 0) (0 : Fin 1) (1 : Fin 128)) := by
  funext q
  obtain ⟨p, rfl⟩ : ∃ p : Fin 32, q = ix1 p := ⟨q 0, eq_ix1 q⟩
  refine (shapeCast_apply _ shapeCasts_S32x1x1_S32 (ix1 p) (ix3 p (0 : Fin 1) (0 : Fin 1)) ?_).trans ?_
  · rw [Shape.rowMajor_val_three, Shape.rowMajor_val_one]
    show (p.val * 1 + 0) * 1 + 0 = p.val
    omega
  · exact extractStridedSlice_apply ![0, 0, 1] A slices_S32x1x128_S32x1x1_0_0_1 (ix3 p (0 : Fin 1) (0 : Fin 1))
      (ix3 p (0 : Fin 1) (1 : Fin 128)) (fun a => match a with
        | ⟨0, _⟩ => by show p.val = 0 + p.val; omega
        | ⟨1, _⟩ => by show 0 = 0 + 0; rfl
        | ⟨2, _⟩ => by show 1 = 1 + 0; rfl)

/-- The closing operations applied to a [32, 1, 128] array are the spec's `tail` of its columns 0 and 1. -/
theorem tail_of (A : S32x1x128.Idx → EReal) :
    Host.divf (F := Ideal)
      (Host.reduceAdd (F := Ideal)
        (Host.sqrt (F := Ideal) (Host.divf (F := Ideal)
          (shapeCast S32 (extractStridedSlice S32x1x1 ![0, 0, 0] A slices_S32x1x128_S32x1x1_0_0_0) shapeCasts_S32x1x1_S32)
          (addf (F := Ideal)
            (shapeCast S32 (extractStridedSlice S32x1x1 ![0, 0, 1] A slices_S32x1x128_S32x1x1_0_0_1) shapeCasts_S32x1x1_S32)
            (broadcastInDim S32 ![] bcast_S_S32 (constant (F := Ideal) S_ .f32 0x29E12E13#32)))))
        (constant (F := Ideal) S_ .f32 0x00000000#32) reducesTo_S32_S_d0 h_S_)
      (constant (F := Ideal) S_ .f32 0x42000000#32)
    = Cert.PairLoss.tail bcast_S_S32 reducesTo_S32_S_d0 h_S_
        (fun q => A (ix3 (q 0) (0 : Fin 1) (0 : Fin 128))) (fun q => A (ix3 (q 0) (0 : Fin 1) (1 : Fin 128))) := by
  rw [col0 A, col1 A]
  rfl

/-! ## The program's result -/

variable (m : (ℓ : Loc nD τ sig) → Buf (Elt Ideal) ℓ) (ρ : Dev nD → PrngReg) (c : Dev nD)

/-- The result buffer after the closing host operations is the spec's `tail` of the columns 0 and 1 of the second
    region's output array. -/
theorem tail_eq : (W4 m ρ c (Proc.devRef .tc main_v16) : S_.Idx → EReal)
    = Cert.PairLoss.tail Cert.KernelIdeal.Gen.bcast_S_S32 Cert.KernelIdeal.Gen.reducesTo_S32_S_d0 Cert.KernelIdeal.Gen.h_S_
        (fun q => (dat1 (F := Ideal) (V2 m ρ) c).arrAt 5 cfg1.N (ix3 (q 0) (0 : Fin 1) (0 : Fin 128)))
        (fun q => (dat1 (F := Ideal) (V2 m ρ) c).arrAt 5 cfg1.N (ix3 (q 0) (0 : Fin 1) (1 : Fin 128))) := by
  have hA : W3 m ρ c (Proc.devRef .tc main_v6) = (dat1 (V2 m ρ) c).arrAt 5 cfg1.N := W3_arr m ρ c 5
  show StableHlo.after hostOps2 (W3 m ρ c) (Proc.devRef .tc main_v16) = _
  generalize (dat1 (V2 m ρ) c).arrAt 5 cfg1.N = A at hA ⊢
  generalize W3 m ρ c = W at hA ⊢
  after_results
  rw [hA]
  exact tail_of A

end Cert.PairLoss.K2

end
-- ==== Proof.RunMain.lean ====
/-
  The idealized kernel's run with its result named.

  The program is two kernel regions among three stretches of host operations.  Every weakly fair execution from a
  memory with zero counters terminates without a fault, and in the final state every buffer that outlives the regions
  holds the contents obtained by folding the segments over the launch memory: the first region's output array at what
  its write-backs leave, the host operations' results as functions of their operands, the second region's output array
  at what its write-backs leave, and the closing host operations' results.  Read at the program's result buffer this
  names the result; read at the three arguments it says they end as launched.
-/
import proofs.«115061_j53025666237022_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents, and the three arguments end as launched. -/
theorem run_main : θ_run defs (onTc (τ := τ) (main (F := F))) ⟨m, fun _ => 0, ρ⟩ (fun r => ∀ c : Dev nD,
      r.2.mem ((c.tc : Thread nD τ).loc main_v16) = W4 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v16 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.RunValue

end
-- ==== Proof.KernelResult.lean ====
/-
  The idealized kernel's run ends with the loss.

  The closing host operations read lanes 0 and 1 of the second region's output array, which hold the specification's
  numerators and weight sums; so the program's result is the specification's loss of the three arguments, and every
  weakly fair execution ends with it, the arguments unchanged.
-/
import proofs.«115061_j53025666237022_1_alg».proof.Proof.KernelValue
import proofs.«115061_j53025666237022_1_alg».proof.Proof.HostTail
import proofs.«115061_j53025666237022_1_alg».proof.Proof.RunMain

set_option maxRecDepth 16384

noncomputable section

open Idealize.ShloMosaic Idealize.ShloMosaic.TcCoe Idealize.SL.Sem Idealize.ShloMosaic.ValueIdx

namespace Cert.PairLoss.K

open Cert.KernelIdeal Cert.KernelIdeal.Gen Cert.PairLoss

variable (m : (ℓ : Loc nD τ sig) → Buf (Elt Ideal) ℓ) (ρ : Dev nD → PrngReg)

/-- The result buffer's final contents are the loss of the launch arguments. -/
theorem kernel_result (c : Dev nD) :
    (W4 m ρ c (Proc.devRef .tc main_v16) : S_.Idx → EReal)
      = result (m ((c : Thread nD τ).loc main_arg0)) (m ((c : Thread nD τ).loc main_arg1)) (m ((c : Thread nD τ).loc main_arg2))
          Cert.KernelIdeal.Gen.bcast_S_S32 Cert.KernelIdeal.Gen.reducesTo_S32_S_d0 Cert.KernelIdeal.Gen.h_S_ := by
  refine (Cert.PairLoss.K2.tail_eq m ρ c).trans ?_
  unfold result
  exact congrArg₂ (tail Cert.KernelIdeal.Gen.bcast_S_S32 Cert.KernelIdeal.Gen.reducesTo_S32_S_d0 Cert.KernelIdeal.Gen.h_S_)
    (funext fun q => kernel_num m ρ c (q 0)) (funext fun q => kernel_den m ρ c (q 0))

/-- Every weakly fair execution of the idealized kernel terminates with the loss in its result buffer and its
    arguments as launched. -/
theorem kernel_run : θ_run defs (onTc (τ := τ) (main (F := Ideal))) ⟨m, fun _ => 0, ρ⟩ (fun r => ∀ c : Dev nD,
      r.2.mem ((c.tc : Thread nD τ).loc main_v16)
          = result (m ((c.tc : Thread nD τ).loc main_arg0)) (m ((c.tc : Thread nD τ).loc main_arg1)) (m ((c.tc : Thread nD τ).loc main_arg2))
              Cert.KernelIdeal.Gen.bcast_S_S32 Cert.KernelIdeal.Gen.reducesTo_S32_S_d0 Cert.KernelIdeal.Gen.h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (kernel_result m ρ c), (h c).2⟩)
    (Cert.KernelIdeal.RunValue.run_main (F := Ideal) m ρ)

end Cert.PairLoss.K

end
-- ==== Proof.LibAxes12.lean ====
/-
  A sum over the last two axes of a rank-3 array, read at an index.

  The host's float sum of an array of extents [n, a, b] over the axes 1 and 2 into a vector of extent [n] is, at the
  entry p, the initial value plus the double sum over the two reduced coordinates of the array at (p, i, j): the source
  indices that reduce to p are exactly the (p, i, j), one for each pair (i, j).
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Dropping the axes 1 and 2 of a rank-3 index keeps its coordinate on axis 0. -/
theorem drop_axes12_val {n a b : Nat} (h' : (⟨3, ![n, a, b]⟩ : Shape).ReducesTo [1, 2] ⟨1, ![n]⟩)
    (i : (⟨3, ![n, a, b]⟩ : Shape).Idx) : (h'.drop i 0 : Nat) = (i 0 : Nat) := rfl

/-- A rank-3 index reduces, over the axes 1 and 2, to the rank-1 index `p` exactly when its coordinate on axis 0 is `p`. -/
theorem drop_axes12_eq_iff {n a b : Nat} (h' : (⟨3, ![n, a, b]⟩ : Shape).ReducesTo [1, 2] ⟨1, ![n]⟩)
    (i : (⟨3, ![n, a, b]⟩ : Shape).Idx) (p : Fin n) : h'.drop i = ix1 p ↔ (i 0 : Nat) = p.val := by
  constructor
  · intro h
    rw [← drop_axes12_val h' i, h]
    rfl
  · intro h
    funext d
    match d with
    | ⟨0, _⟩ => exact Fin.ext ((drop_axes12_val h' i).trans h)

/-- THE SUM OVER THE AXES 1 AND 2, READ AT `p`: the initial value plus the double sum over the two reduced coordinates,
    at any extents. -/
theorem hostReduceAdd_axes12 {n a b : Nat} (h' : (⟨3, ![n, a, b]⟩ : Shape).ReducesTo [1, 2] ⟨1, ![n]⟩)
    (x : (⟨3, ![n, a, b]⟩ : Shape).Idx → EReal) (init : EReal) (p : Fin n) :
    Ideal.hostReduceAdd h' x init (ix1 p) = init + ∑ i : Fin a, ∑ j : Fin b, x (ix3 p i j) := by
  unfold Ideal.hostReduceAdd
  refine congrArg (init + ·) ?_
  rw [← Fintype.sum_prod_type' (fun (i : Fin a) (j : Fin b) => x (ix3 p i j))]
  refine Finset.sum_bij' (fun idx _ => ((idx 1, idx 2) : Fin a × Fin b)) (fun q _ => ix3 p q.1 q.2)
    (fun _ _ => Finset.mem_univ _) ?_ ?_ ?_ ?_
  · intro q _
    exact Finset.mem_filter.mpr ⟨Finset.mem_univ _, (drop_axes12_eq_iff h' _ p).mpr rfl⟩
  · intro idx hidx
    have h0 := (drop_axes12_eq_iff h' idx p).mp (Finset.mem_filter.mp hidx).2
    funext d
    match d with
    | ⟨0, _⟩ => exact Fin.ext h0.symm
    | ⟨1, _⟩ => rfl
    | ⟨2, _⟩ => rfl
  · intro q _
    rfl
  · intro idx hidx
    have h0 := (drop_axes12_eq_iff h' idx p).mp (Finset.mem_filter.mp hidx).2
    refine congrArg x ?_
    funext d
    match d with
    | ⟨0, _⟩ => exact Fin.ext h0
    | ⟨1, _⟩ => rfl
    | ⟨2, _⟩ => rfl

end Idealize.ShloMosaic.ValueIdx

end
-- ==== Proof.RefSide.lean ====
/-
  The reference program computes the loss of Spec.lean.

  Each host operation's result is read at an index through the generated stage lemmas; the pair weight, the
  normalized rows, the cosines and the relative label distances are identified with the spec's functions, the two sums
  over the pair axes with the spec's double sums, and the closing operations are the spec's `tail` verbatim.
-/
import proofs.«115061_j53025666237022_1_alg».proof.Proof.Gen.ReferenceIdeal.Read
import proofs.«115061_j53025666237022_1_alg».proof.Proof.Spec
import proofs.«115061_j53025666237022_1_alg».proof.Proof.LibAxes12
import Idealize.ShloMosaic.PureOps.Ideal
import Idealize.ShloMosaic.PureOps.Ideal.Laws
import Idealize.ShloMosaic.Lib.ValueIdx

noncomputable section

namespace Cert.PairLoss.Ref

open Idealize.ShloMosaic Idealize.ShloMosaic.ValueIdx
open Cert.ReferenceIdeal Cert.ReferenceIdeal.Gen Cert.ReferenceIdeal.Read
open scoped BigOperators

/-! ## The pair weight as a word -/

/-- A number below 1024 written as a 32-bit word reads back, signed, as itself. -/
theorem toInt_small (i : Nat) (hi : i < 1024) : (BitVec.ofNat 32 i).toInt = (i : Int) := by
  have h1 : (BitVec.ofNat 32 i).toNat = i := by rw [BitVec.toNat_ofNat]; exact Nat.mod_eq_of_lt (by omega)
  rw [BitVec.toInt_eq_toNat_of_lt (by rw [h1]; omega), h1]

/-- The signed comparison of two such words is the comparison of the numbers. -/
theorem sle_small (i j : Nat) (hi : i < 1024) (hj : j < 1024) :
    (BitVec.ofNat 32 j).sle (BitVec.ofNat 32 i) = decide (j ≤ i) := by
  rw [BitVec.sle_eq_decide, toInt_small i hi, toInt_small j hj]
  exact decide_eq_decide.mpr Int.ofNat_le

/-- The weight of a pair: the conjunction of the two mask bits and of "not (i ≥ j)", converted to a number, is one when
    both bits are set and i < j, else zero. -/
theorem weight_word (p q : BitVec 1) (i j : Nat) (hi : i < 1024) (hj : j < 1024) :
    FloatOps.uitofp (F := Ideal) .f32
        (IntOp.andi (IntOp.andi p q)
          (Scalar.select (IntOp.cmpi .sge (IntOp.addi (BitVec.ofNat 32 i) 0#32) (BitVec.ofNat 32 j)) 0#1 1#1))
      = if p = 1#1 ∧ q = 1#1 ∧ i < j then (1 : EReal) else 0 := by
  have hc : IntOp.cmpi .sge (IntOp.addi (BitVec.ofNat 32 i) 0#32) (BitVec.ofNat 32 j)
      = BitVec.ofBool (decide (j ≤ i)) := by
    unfold IntOp.cmpi IntOp.addi
    rw [BitVec.add_zero]
    exact congrArg BitVec.ofBool (sle_small i j hi hj)
  rw [hc]
  show (((IntOp.andi (IntOp.andi p q) _).toNat : ℝ) : EReal) = _
  unfold IntOp.andi Scalar.select
  rcases BitVec.eq_zero_or_eq_one p with rfl | rfl <;> rcases BitVec.eq_zero_or_eq_one q with rfl | rfl <;>
    by_cases hij : i < j <;> simp [hij, Nat.not_le.mpr, Nat.not_lt.mp]

variable (x0 : (⟨Cert.ReferenceIdeal.S32x1024x768, .f32⟩ : BufTy).Contents (Elt Ideal))
  (x1 : (⟨Cert.ReferenceIdeal.S32x1024, .i32⟩ : BufTy).Contents (Elt Ideal))
  (x2 : (⟨Cert.ReferenceIdeal.S32x1024, .i1⟩ : BufTy).Contents (Elt Ideal))

/-! ## The weight array -/

/-- The converted weight array at (b, i, j) is the spec's weight. -/
theorem v18_at (b : Fin 32) (i j : Fin 1024) : val_main_v18 (F := Ideal) x2 (ix3 b i j) = mk x2 b i j := by
  rw [val_main_v18_apply, val_main_v17_apply, val_main_v12_apply, val_main_v10_apply, val_main_v8_apply,
    val_main_v11_apply, val_main_v9_apply, val_main_v16_apply, val_main_v15_apply, val_main_v14_apply,
    val_main_call1_v4_apply, val_main_call1_v2_apply, val_main_call1_v0_apply, val_main_call1_v1_apply,
    val_main_call1_c_apply, val_main_call1_v3_apply, val_main_call1_v5_apply, val_main_call1_c_0_apply,
    val_main_v13_apply, val_main_c_apply]
  have e1 : idx_main_v8 (idx_main_v10 (ix3 b i j)) = ix2 b i :=
    funext fun a => Fin.ext (by match a with | ⟨0, _⟩ => rfl | ⟨1, _⟩ => rfl)
  have e2 : idx_main_v9 (idx_main_v11 (ix3 b i j)) = ix2 b j :=
    funext fun a => Fin.ext (by match a with | ⟨0, _⟩ => rfl | ⟨1, _⟩ => rfl)
  rw [e1, e2]
  exact weight_word (x2 (ix2 b i)) (x2 (ix2 b j)) i.val j.val i.isLt j.isLt

/-! ## The normalized rows and the cosines -/

/-- The sum of squares of row (b, i): the zero initial value drops out. -/
theorem call0_v1_at (b : Fin 32) (i : Fin 1024) :
    val_main_call0_v1 (F := Ideal) x0 (ix2 b i) = ∑ h : Fin 768, x0 (ix3 b i h) * x0 (ix3 b i h) := by
  rw [val_main_call0_v1_apply, val_main_call0_cst_apply, Ideal.ofBits_def, Ideal.ofBits_zero_f32, zero_add]
  refine Finset.sum_congr rfl fun k _ => ?_
  have e : idx_main_call0_v1 (ix2 b i) k = ix3 b i k :=
    funext fun a => Fin.ext (by match a with | ⟨0, _⟩ => rfl | ⟨1, _⟩ => rfl | ⟨2, _⟩ => rfl)
  rw [e, val_main_call0_v0_apply, Ideal.mulf_def]

/-- The clamped norm of row (b, i), kept as a column of width one. -/
theorem v2_at (b : Fin 32) (i : Fin 1024) (z : Fin 1) : val_main_v2 (F := Ideal) x0 (ix3 b i z) = nrm x0 b i := by
  rw [val_main_v2_apply, val_main_v0_apply, val_main_call0_v2_apply, val_main_v1_apply, val_main_cst_apply]
  have e : idx_main_call0_v2 (ix3 b i z) = ix2 b i :=
    funext fun a => Fin.ext (by match a with | ⟨0, _⟩ => rfl | ⟨1, _⟩ => rfl)
  rw [e, call0_v1_at]
  rfl

/-- The normalized embedding. -/
theorem v4_at (b : Fin 32) (i : Fin 1024) (h : Fin 768) : val_main_v4 (F := Ideal) x0 (ix3 b i h) = xn x0 b i h := by
  rw [val_main_v4_apply, val_main_v3_apply]
  have e : idx_main_v3 (ix3 b i h) = ix3 b i (0 : Fin 1) :=
    funext fun a => Fin.ext (by match a with | ⟨0, _⟩ => rfl | ⟨1, _⟩ => rfl | ⟨2, _⟩ => rfl)
  rw [e, v2_at]
  rfl

/-- The cosine of rows i and j. -/
theorem v5_at (b : Fin 32) (i j : Fin 1024) : val_main_v5 (F := Ideal) x0 (ix3 b i j) = cosv x0 b i j := by
  rw [val_main_v5_apply]
  unfold cosv
  refine Finset.sum_congr rfl fun k _ => ?_
  have el : lidx_main_v5 (ix3 b i j) k = ix3 b i k :=
    funext fun a => Fin.ext (by match a with | ⟨0, _⟩ => rfl | ⟨1, _⟩ => rfl | ⟨2, _⟩ => rfl)
  have er : ridx_main_v5 (ix3 b i j) k = ix3 b j k :=
    funext fun a => Fin.ext (by match a with | ⟨0, _⟩ => rfl | ⟨1, _⟩ => rfl | ⟨2, _⟩ => rfl)
  rw [el, er, v4_at, v4_at]

/-! ## The relative label distance -/

/-- The labels broadcast along the rows: entry (b, i, j) is the label of j. -/
theorem v22_at (b : Fin 32) (i j : Fin 1024) : val_main_v22 (F := Ideal) x1 (ix3 b i j) = gf x1 b j := by
  rw [val_main_v22_apply, val_main_v20_apply, val_main_v19_apply]
  have e : idx_main_v20 (idx_main_v22 (ix3 b i j)) = ix2 b j :=
    funext fun a => Fin.ext (by match a with | ⟨0, _⟩ => rfl | ⟨1, _⟩ => rfl)
  rw [e]
  rfl

/-- The labels broadcast along the columns: entry (b, i, j) is the label of i. -/
theorem v23_at (b : Fin 32) (i j : Fin 1024) : val_main_v23 (F := Ideal) x1 (ix3 b i j) = gf x1 b i := by
  rw [val_main_v23_apply, val_main_v21_apply, val_main_v19_apply]
  have e : idx_main_v21 (idx_main_v23 (ix3 b i j)) = ix2 b i :=
    funext fun a => Fin.ext (by match a with | ⟨0, _⟩ => rfl | ⟨1, _⟩ => rfl)
  rw [e]
  rfl

/-- The absolute labels broadcast along the rows. -/
theorem v30_at (b : Fin 32) (i j : Fin 1024) :
    val_main_v30 (F := Ideal) x1 (ix3 b i j) = max (gf x1 b j) (-(gf x1 b j)) := by
  rw [val_main_v30_apply, val_main_v28_apply, val_main_v20_apply, val_main_v19_apply]
  have e : idx_main_v20 (idx_main_v30 (ix3 b i j)) = ix2 b j :=
    funext fun a => Fin.ext (by match a with | ⟨0, _⟩ => rfl | ⟨1, _⟩ => rfl)
  rw [e]
  rfl

/-- The absolute labels broadcast along the columns. -/
theorem v31_at (b : Fin 32) (i j : Fin 1024) :
    val_main_v31 (F := Ideal) x1 (ix3 b i j) = max (gf x1 b i) (-(gf x1 b i)) := by
  rw [val_main_v31_apply, val_main_v29_apply, val_main_v21_apply, val_main_v19_apply]
  have e : idx_main_v21 (idx_main_v31 (ix3 b i j)) = ix2 b i :=
    funext fun a => Fin.ext (by match a with | ⟨0, _⟩ => rfl | ⟨1, _⟩ => rfl)
  rw [e]
  rfl

/-- The relative distance of the labels of i and j. -/
theorem v35_at (b : Fin 32) (i j : Fin 1024) : val_main_v35 (F := Ideal) x1 (ix3 b i j) = vd x1 b i j := by
  rw [val_main_v35_apply, val_main_v27_apply, val_main_v26_apply, val_main_cst_1_apply, val_main_v25_apply,
    val_main_v24_apply, v22_at, v23_at, val_main_v34_apply, val_main_v32_apply, v30_at, v31_at,
    val_main_v33_apply, val_main_cst_2_apply]
  rfl

/-! ## One pair's term -/

/-- The masked squared difference at (b, i, j) is the spec's term. -/
theorem v38_at (b : Fin 32) (i j : Fin 1024) :
    val_main_v38 (F := Ideal) x0 x1 x2 (ix3 b i j) = term x0 x1 x2 b i j := by
  rw [val_main_v38_apply, val_main_v37_apply, val_main_v36_apply, val_main_v7_apply, val_main_v6_apply,
    val_main_cst_0_apply, v5_at, v35_at, v18_at]
  rfl

/-! ## The two sums over the pair axes, and the loss -/

/-- The reference's numerators are the spec's. -/
theorem ref_num : val_main_v39 (F := Ideal) x0 x1 x2 = numV x0 x1 x2 := by
  funext q
  obtain ⟨p, rfl⟩ : ∃ p : Fin 32, q = ix1 p := ⟨q 0, eq_ix1 q⟩
  have hv : ∀ i j, val_main_v38 (F := Ideal) x0 x1 x2 (ix3 p i j) = term x0 x1 x2 p i j := v38_at x0 x1 x2 p
  unfold val_main_v39
  generalize val_main_v38 (F := Ideal) x0 x1 x2 = y at hv
  simp only [Host.reduceAdd, Ideal.hostReduceAdd_def]
  rw [hostReduceAdd_axes12 reducesTo_S32x1024x1024_S32_d1_2, val_main_cst_3_apply, Ideal.ofBits_def,
    Ideal.ofBits_zero_f32, zero_add]
  exact Finset.sum_congr rfl fun i _ => Finset.sum_congr rfl fun j _ => hv i j

/-- The reference's weight sums are the spec's. -/
theorem ref_den : val_main_v40 (F := Ideal) x2 = denV x2 := by
  funext q
  obtain ⟨p, rfl⟩ : ∃ p : Fin 32, q = ix1 p := ⟨q 0, eq_ix1 q⟩
  have hv : ∀ i j, val_main_v18 (F := Ideal) x2 (ix3 p i j) = mk x2 p i j := v18_at x2 p
  unfold val_main_v40
  generalize val_main_v18 (F := Ideal) x2 = y at hv
  simp only [Host.reduceAdd, Ideal.hostReduceAdd_def]
  rw [hostReduceAdd_axes12 reducesTo_S32x1024x1024_S32_d1_2, val_main_cst_4_apply, Ideal.ofBits_def,
    Ideal.ofBits_zero_f32, zero_add]
  exact Finset.sum_congr rfl fun i _ => Finset.sum_congr rfl fun j _ => hv i j

/-- The reference's result is the spec's loss: its last seven operations are the spec's closing operations on the
    numerators and the weight sums. -/
theorem ref_result :
    val_main_v46 (F := Ideal) x0 x1 x2 = result x0 x1 x2 bcast_S_S32 reducesTo_S32_S_d0 h_S_ := by
  unfold result tail val_main_v46 val_main_v45 val_main_v44 val_main_v43 val_main_v42
  rw [ref_num, ref_den]
  rfl

end Cert.PairLoss.Ref

end
-- ==== Proof.lean ====
/-
  A pairwise relative loss: the kernel and its reference compute one function over the extended reals.

  Both programs take embeddings x (f32[32,1024,768]), integer labels g (i32[32,1024]) and a mask (i1[32,1024]).  Each
  row x(b,i,·) is divided by its Euclidean norm clamped below by a small constant; c(b,i,j) is the inner product of
  the normalized rows i and j; v(b,i,j) = 2·|g_j - g_i| / (|g_j| + |g_i| + ε) is the relative distance of the labels;
  a pair (i,j) has weight one when both mask bits are set and i < j, else zero.  For each batch entry the numerator is
  the sum over pairs of ((1 - c) - v)² times the weight and the denominator the sum of the weights plus a small
  constant; the loss is the mean over the batch of the square root of their quotient.

  The reference forms the [32,1024,1024] arrays whole and sums them over both pair axes.  The kernel first writes the
  normalized rows, then visits each batch entry in four tiles of 256 rows against all 1024 columns, adds each tile's
  two sums into lanes 0 and 1 of one accumulator block that is reset at the first tile and written back after the
  fourth, and finishes with the same closing operations as the reference.  Over the extended reals the change of
  float format is the identity, a matrix product into zero is the sum of products, a product of zero-or-one factors is
  the zero-or-one of the conjunction, and addition is commutative and associative, so four tile sums added in order
  from zero are the sum over all rows: no step uses that the inputs are finite.

  The frames of the two kernel programs are the generated ones; the reference's frame is its generated run with the
  result dropped; no operation was rewritten by the idealization, so there is nothing to preserve.
-/
import proofs.«115061_j53025666237022_1_alg».proof.Defs
import proofs.«115061_j53025666237022_1_alg».proof.Proof.Gen.Kernel
import proofs.«115061_j53025666237022_1_alg».proof.Proof.Gen.Kernel.Skeleton
import proofs.«115061_j53025666237022_1_alg».proof.Proof.Gen.Kernel.Launch
import proofs.«115061_j53025666237022_1_alg».proof.Proof.Gen.Kernel.Points
import proofs.«115061_j53025666237022_1_alg».proof.Proof.Gen.Kernel.Frame
import proofs.«115061_j53025666237022_1_alg».proof.Proof.Gen.KernelIdeal
import proofs.«115061_j53025666237022_1_alg».proof.Proof.Gen.KernelIdeal.Skeleton
import proofs.«115061_j53025666237022_1_alg».proof.Proof.Gen.KernelIdeal.Launch
import proofs.«115061_j53025666237022_1_alg».proof.Proof.Gen.KernelIdeal.Points
import proofs.«115061_j53025666237022_1_alg».proof.Proof.Gen.KernelIdeal.Frame
import proofs.«115061_j53025666237022_1_alg».proof.Proof.Gen.ReferenceIdeal
import proofs.«115061_j53025666237022_1_alg».proof.Proof.Gen.ReferenceIdeal.Run
import proofs.«115061_j53025666237022_1_alg».proof.Proof.Gen.ReferenceIdeal.Read
import proofs.«115061_j53025666237022_1_alg».proof.Proof.Gen.Pre_finite_inputs
import proofs.«115061_j53025666237022_1_alg».proof.Proof.KernelResult
import proofs.«115061_j53025666237022_1_alg».proof.Proof.RefSide
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the loss of those arguments. -/
theorem algebraic : Cert.algebraic_KernelIdeal_ReferenceIdeal := by
  intro m ρ m' ρ' _ hagree
  refine ⟨fun c => Cert.PairLoss.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      Cert.KernelIdeal.Gen.bcast_S_S32 Cert.KernelIdeal.Gen.reducesTo_S32_S_d0 Cert.KernelIdeal.Gen.h_S_,
    Cert.PairLoss.K.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.PairLoss.Ref.ref_result, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
